-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S4096x8192 : Shape := ⟨2, ![4096, 8192]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  main_v18

def fn {F : FTy → Type} [FloatOps F] (main_arg0 : FVec F S1024x2048 .f32) (main_arg1 : FVec F S1024x2048 .f32) (main_arg2 : FVec F S1024x2048 .f32) (main_arg3 : FVec F S4096x8192 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_v13 main_v16
-- ==== Kernel.lean ====
abbrev S1024x2048 : Shape := ⟨2, ![1024, 2048]⟩
abbrev S4096x8192 : Shape := ⟨2, ![4096, 8192]⟩
abbrev S512x128 : Shape := ⟨2, ![512, 128]⟩
abbrev S128x8192 : Shape := ⟨2, ![128, 8192]⟩
abbrev S512x2048 : Shape := ⟨2, ![512, 2048]⟩
abbrev S512x8192 : Shape := ⟨2, ![512, 8192]⟩

abbrev nBuf : Space → Nat
  | .hbm => 6
  | .vmem => 15
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S4096x8192, .f32⟩
  | .hbm, ⟨4, _⟩ => ⟨S1024x2048, .f32⟩
  | .hbm, ⟨5, _⟩ => ⟨S1024x2048, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S128x8192, .f32⟩
  | .local _ .vmem, ⟨5, _⟩ => ⟨S128x8192, .f32⟩
  | .local _ .vmem, ⟨6, _⟩ => ⟨S128x8192, .f32⟩
  | .local _ .vmem, ⟨7, _⟩ => ⟨S128x8192, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x8192, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S128x8192_S128x8192_0_0 : ∀ a, (![0, 0] : Fin 2 → Nat) a + S128x8192.size a ≤ S128x8192.size a
  h_S128x8192 : 0 < S128x8192.numel
  slices_S512x8192_o0_0_S512x2048 : S512x8192.Slices ![0, 0] S512x2048
  slices_S512x8192_o0_2048_S512x2048 : S512x8192.Slices ![0, 2048] S512x2048
  slices_S512x8192_o0_4096_S512x2048 : S512x8192.Slices ![0, 4096] S512x2048
  slices_S512x8192_o0_6144_S512x2048 : S512x8192.Slices ![0, 6144] S512x2048
  inb_S512x2048_S512x2048_0_0 : ∀ a, (![0, 0] : Fin 2 → Nat) a + S512x2048.size a ≤ S512x2048.size a
  h_S512x2048 : 0 < S512x2048.numel
  dot_S512x128_S128x8192_S512x8192_1_0_0_1_n_n_wf : DotDims.WF S512x128 S128x8192 S512x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S1024x2048.size a
  hwx0_0 : ∀ i : grid0.Coords, EltTy.bits .f32 = 32 ∨ (Rect.block (s := S1024x2048) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S1024x2048.size a
  hwx0_1 : ∀ i : grid0.Coords, EltTy.bits .f32 = 32 ∨ (Rect.block (s := S1024x2048) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8192.size a ≤ S4096x8192.size a
  hwx0_2 : ∀ i : grid0.Coords, EltTy.bits .f32 = 32 ∨ (Rect.block (s := S4096x8192) S128x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S4096x8192.size a
  hwx0_3 : ∀ i : grid0.Coords, EltTy.bits .f32 = 32 ∨ (Rect.block (s := S4096x8192) S128x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S1024x2048.size a
  hwx0_4 : ∀ i : grid0.Coords, EltTy.bits .f32 = 32 ∨ (Rect.block (s := S1024x2048) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S1024x2048.size a
  hwx0_5 : ∀ i : grid0.Coords, EltTy.bits .f32 = 32 ∨ (Rect.block (s := S1024x2048) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S1024x2048.size a
  hwx0_6 : ∀ i : grid0.Coords, EltTy.bits .f32 = 32 ∨ (Rect.block (s := S1024x2048) S512x2048.size (cc0_transform_6 i) (hinb0_6 i)).WholeWords (EltTy.packing .f32)

variable [Facts₀]

def dot_S512x128_S128x8192_S512x8192_1_0_0_1_n_n : DotDims S512x128 S128x8192 S512x8192 where
  lhsContracting := [1]
  rhsContracting := [0]
  lhsNonContracting := [0]
  rhsNonContracting := [1]
  lhsBatch := []
  rhsBatch := []
  wf := dot_S512x128_S128x8192_S512x8192_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S512x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1024x2048 : Shape := ⟨2, ![1024, 2048]⟩
abbrev S4096x8192 : Shape := ⟨2, ![4096, 8192]⟩
abbrev S1024x4096 : Shape := ⟨2, ![1024, 4096]⟩
abbrev S1024x8192 : Shape := ⟨2, ![1024, 8192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S4096x8192, .f32⟩
  | .hbm, ⟨4, _⟩ => ⟨S1024x4096, .f32⟩
  | .hbm, ⟨5, _⟩ => ⟨S1024x8192, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S_, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S1024x2048, .f32⟩
  | .hbm, ⟨20, _⟩ => ⟨S_, .f32⟩
  | .hbm, ⟨21, _⟩ => ⟨S1024x2048, .f32⟩
  | .hbm, ⟨22, _⟩ => ⟨S1024x2048, .f32⟩
  | .hbm, ⟨23, _⟩ => ⟨S_, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S1024x2048, .f32⟩
  | .hbm, ⟨28, _⟩ => ⟨S_, .f32⟩
  | .hbm, ⟨29, _⟩ => ⟨S1024x2048, .f32⟩
  | .hbm, ⟨30, _⟩ => ⟨S1024x2048, .f32⟩
  | .hbm, ⟨31, _⟩ => ⟨S_, .f32⟩
  | .hbm, ⟨32, _⟩ => ⟨S1024x2048, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S1024x2048, .f32⟩
  | .hbm, ⟨38, _⟩ => ⟨S1024x2048, .f32⟩
  | .hbm, ⟨39, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  concatenates_S1024x2048_S1024x2048_S1024x4096_d1 : Shape.Concatenates [S1024x2048, S1024x2048] S1024x4096 1
  slices_S1024x8192_S1024x2048_0_0 : S1024x8192.Slices ![0, 0] S1024x2048
  slices_S1024x8192_S1024x2048_0_2048 : S1024x8192.Slices ![0, 2048] S1024x2048
  slices_S1024x8192_S1024x2048_0_4096 : S1024x8192.Slices ![0, 4096] S1024x2048
  slices_S1024x8192_S1024x2048_0_6144 : S1024x8192.Slices ![0, 6144] S1024x2048
  bcast_S_S1024x2048 : S_.BroadcastsInDim S1024x2048 (![] : Fin 0 → Fin S1024x2048.rank)
  dot_S1024x4096_S4096x8192_S1024x8192_1_0_0_1_n_n_wf : DotDims.WF S1024x4096 S4096x8192 S1024x8192 [1] [0] [0] [1] [] []

variable [Facts₀]

def dot_S1024x4096_S4096x8192_S1024x8192_1_0_0_1_n_n : DotDims S1024x4096 S4096x8192 S1024x8192 where
  lhsContracting := [1]
  rhsContracting := [0]
  lhsNonContracting := [0]
  rhsNonContracting := [1]
  lhsBatch := []
  rhsBatch := []
  wf := dot_S1024x4096_S4096x8192_S1024x8192_1_0_0_1_n_n_wf

class Facts : Prop extends Facts₀ where

variable [Facts]
-- ==== Proof.K.Data.lean ====
/-
  The proof data of the one pipelined region.

  The grid has 2 × 16 points, walked in order: point `t` works on the row half `t / 16` and the block `t % 16` of
  the hidden axis. A scratch buffer of 512 × 8192 entries carries the running pre-activation of the row half:
  it is zeroed at block 0, every block adds the product of `x`'s block with the matching 128 weight rows and
  then the product of `h`'s block with the weight rows 2048 further down, and at block 15 the gates are read
  off it and the two result blocks stored. `accAt n` is what the scratch holds after point `n`, by recursion on
  the point; between points the invariant holds the scratch at exactly that. The weight matrix is staged twice,
  through two windows at different rows, so the two windows hold it at the two halves of the full share.
-/
import proofs.«154079_j8632884265137_2_alg».proof.Proof.Gen.Kernel.Launch
import proofs.«154079_j8632884265137_2_alg».proof.Proof.Gen.Kernel.Skeleton
import proofs.«154079_j8632884265137_2_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the region finds them: the launch contents (no host operation comes before the region). -/
abbrev V (c : Dev nD) (b : Ref sig .tc) : Buf (Elt F) ((c.tc : Thread nD τ).loc b) := m ((c.tc : Thread nD τ).loc b)

/-- Window `w`'s block at point `t`, read off its array. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the scratch holds after point `n`: zero at a first block, else what the point before left, plus this
    block's two products. -/
def accAt (c : Dev nD) : (n : ℕ) → n < cfg0.N → Vec F S512x8192 .f32
  | 0, h => k0_pay3 (blk m c 1 ⟨0, h⟩) (blk m c 3 ⟨0, h⟩) (k0_pay2 (blk m c 0 ⟨0, h⟩) (blk m c 2 ⟨0, h⟩) k0_pay1)
  | n + 1, h => k0_pay3 (blk m c 1 ⟨n + 1, h⟩) (blk m c 3 ⟨n + 1, h⟩) (k0_pay2 (blk m c 0 ⟨n + 1, h⟩) (blk m c 2 ⟨n + 1, h⟩)
      (if (n + 1) % 16 = 0 then k0_pay1 else accAt c n (Nat.lt_of_succ_lt h)))

/-- The scratch accumulator as a memref. -/
abbrev scr : Memref sig .tc .vmem S512x8192 .f32 := Memref.whole cc0_scratch0

/-- The invariant before position `n`: before the first point the scratch at anything (the core's scoped
    buffers that are no staging buffer: the scratch alone); afterwards at what the point before left in it. -/
def Phi (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scr fullShare (accAt m c n hn)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => k0_pay5 (accAt m c t.val t.isLt) (blk m c 4 t)
    | ⟨6, _⟩ => k0_pay4 (accAt m c t.val t.isLt) (blk m c 4 t)
  Φ t := Phi m c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
  owed _ := 0

end Cert.Kernel.Cell

end
-- ==== Proof.LibWholeStore.lean ====
/-
  Whole-buffer stores and loads.

  A rectangle at offset zero whose extent is the whole shape is the whole index set. So a store through it,
  made last, leaves exactly its payload whatever the buffer held and whatever was stored before; and a load
  through it reads the contents as they are.
-/
import Idealize.ShloMosaic.Lib.Pipeline.FrameBody
import Idealize.ShloMosaic.Lib.Pipeline.Value

noncomputable section

namespace Idealize.ShloMosaic.View

open Idealize.ShloMosaic

variable {sig : RefSig} {κ : Kind} {sp : Space} {S : Shape} {e : EltTy} {Val : EltTy → Type} [∀ e, Nonempty (Val e)]

/-- Every index lies in the rectangle at offset zero of full extent. -/
theorem mem_unit_zero_full {off : Fin S.rank → Nat} (h : off = fun _ => 0) (inb : ∀ a, off a + S.size a ≤ S.size a) (y : S.Idx) :
    y ∈ (Rect.unit off S.size inb).set := by
  subst h
  show y ∈ (Rect.whole S).set
  rw [Rect.set_whole]; exact Finset.mem_univ y

/-- A store of the whole buffer, made last, leaves its payload. -/
theorem read_writes_cons_unit_zero (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  rw [read_writes_eq_canon v f _ (fun y => ⟨_, List.mem_cons_self, mem_unit_zero_full h inb y⟩), canon_cons_unit_zero h inb w L]

/-- A load of the whole buffer reads its contents. -/
theorem readAt_unit_zero (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [readAt_eq_ld, ld_unit_zero h inb]

end Idealize.ShloMosaic.View

end
-- ==== Proof.K.Body.lean ====
/-
  The kernel body, run once in each of the three situations a grid point can be in.

  At the first block of the hidden axis the body zeroes the scratch before accumulating; at the last block it
  reads the finished pre-activation, loads the cell-state block and stores the two result blocks; in between it
  only accumulates. In each case the scratch ends at this block's two products added, in order, to what it held
  (zero at the first block), every input buffer ends as it was, and at the last block the two result buffers end
  at the new hidden state and the new cell state of the finished pre-activation.
-/
import proofs.«154079_j8632884265137_2_alg».proof.Proof.K.Data
import proofs.«154079_j8632884265137_2_alg».proof.Proof.LibWholeStore
set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first conditional of the body: this is block 0 of the hidden axis. -/
abbrev isFirst (i : grid0.Coords) : Prop := (Scalar.cmpi .ne (Scalar.extui (Scalar.cmpi .eq (BitVec.ofNat 32 (i 1).val) 0#32)) 0#32) = 1#1
/-- The second: this is block 15. -/
abbrev isLast (i : grid0.Coords) : Prop := k0_cond2 i = 1#1

/-- The offset of every access of the body: the origin. -/
theorem origin2 : (![0, 0] : Fin 2 → ℕ) = fun _ => 0 := by funext a; fin_cases a <;> rfl

set_option maxHeartbeats 4000000 in
/-- A middle block: the scratch gains the two products; nothing else changes. -/
theorem run_mid (c : Dev nD) (i : grid0.Coords)
    (a2 : Memref sig .tc .vmem S512x128 .f32) (h2 : a2.IsWhole) (a3 : Memref sig .tc .vmem S512x128 .f32) (h3 : a3.IsWhole)
    (a4 : Memref sig .tc .vmem S128x8192 .f32) (h4 : a4.IsWhole) (a5 : Memref sig .tc .vmem S128x8192 .f32) (h5 : a5.IsWhole)
    (a6 : Memref sig .tc .vmem S512x2048 .f32) (h6 : a6.IsWhole) (a7 : Memref sig .tc .vmem S512x2048 .f32) (h7 : a7.IsWhole)
    (a8 : Memref sig .tc .vmem S512x2048 .f32) (h8 : a8.IsWhole) (a9 : Memref sig .tc .vmem S512x8192 .f32) (h9 : a9.IsWhole)
    (hc0 : ¬isFirst i) (hc1 : ¬isLast i)
    (x0 x1 : Vec F S512x128 .f32) (w0 w1 : Vec F S128x8192 .f32) (acc : Vec F S512x8192 .f32)
    (E : Set ℕ) (K : PUnit → sProp 𝕄) :
    iprop(owns (c : Thread nD τ) a2 fullShare x0 ∗ owns (c : Thread nD τ) a3 fullShare x1 ∗ owns (c : Thread nD τ) a4 fullShare w0 ∗ owns (c : Thread nD τ) a5 fullShare w1 ∗ owns (c : Thread nD τ) a9 fullShare acc
        ∗ (iprop(owns (c : Thread nD τ) a2 fullShare x0 ∗ owns (c : Thread nD τ) a3 fullShare x1 ∗ owns (c : Thread nD τ) a4 fullShare w0 ∗ owns (c : Thread nD τ) a5 fullShare w1
            ∗ owns (c : Thread nD τ) a9 fullShare (k0_pay3 x1 w1 (k0_pay2 x0 w0 acc))) -∗ K ⟨⟩))
      ⊢ wp frame (wpE (defs₀ (F := F)) Variants.none c none) E (cc0__lstm_kernel i a2 h2 a3 h3 a4 h4 a5 h5 a6 h6 a7 h7 a8 h8 a9 h9) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f9, %hf9, H9⟩, Hk⟩
  obtain rfl := h2.eq_unread hf0; obtain rfl := h3.eq_unread hf1; obtain rfl := h4.eq_unread hf2; obtain rfl := h5.eq_unread hf3
  obtain rfl := h9.eq_unread hf9
  sl_exec (disch := first | exact hc0 | exact hc1)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  iexists _; isplitr
  swap; · iexact H9
  ipureintro
  sl_unfold_words
  rw [View.read_writes_cons_unit_zero _ _ origin2]
  simp only [View.readAt_unit_zero (S := S512x128) _ _ origin2, View.readAt_unit_zero (S := S128x8192) _ _ origin2, View.readAt_unit_zero (S := S512x8192) _ _ origin2, View.readAt_unit_zero (S := S512x2048) _ _ origin2, View.readCov_cons_toLoadRect, hf0, hf1, hf2, hf3, hf9]

set_option maxHeartbeats 4000000 in
/-- The first block: the scratch is zeroed, then gains the two products. -/
theorem run_first (c : Dev nD) (i : grid0.Coords)
    (a2 : Memref sig .tc .vmem S512x128 .f32) (h2 : a2.IsWhole) (a3 : Memref sig .tc .vmem S512x128 .f32) (h3 : a3.IsWhole)
    (a4 : Memref sig .tc .vmem S128x8192 .f32) (h4 : a4.IsWhole) (a5 : Memref sig .tc .vmem S128x8192 .f32) (h5 : a5.IsWhole)
    (a6 : Memref sig .tc .vmem S512x2048 .f32) (h6 : a6.IsWhole) (a7 : Memref sig .tc .vmem S512x2048 .f32) (h7 : a7.IsWhole)
    (a8 : Memref sig .tc .vmem S512x2048 .f32) (h8 : a8.IsWhole) (a9 : Memref sig .tc .vmem S512x8192 .f32) (h9 : a9.IsWhole)
    (hc0 : isFirst i) (hc1 : ¬isLast i)
    (x0 x1 : Vec F S512x128 .f32) (w0 w1 : Vec F S128x8192 .f32) (acc : Vec F S512x8192 .f32)
    (E : Set ℕ) (K : PUnit → sProp 𝕄) :
    iprop(owns (c : Thread nD τ) a2 fullShare x0 ∗ owns (c : Thread nD τ) a3 fullShare x1 ∗ owns (c : Thread nD τ) a4 fullShare w0 ∗ owns (c : Thread nD τ) a5 fullShare w1 ∗ owns (c : Thread nD τ) a9 fullShare acc
        ∗ (iprop(owns (c : Thread nD τ) a2 fullShare x0 ∗ owns (c : Thread nD τ) a3 fullShare x1 ∗ owns (c : Thread nD τ) a4 fullShare w0 ∗ owns (c : Thread nD τ) a5 fullShare w1
            ∗ owns (c : Thread nD τ) a9 fullShare (k0_pay3 x1 w1 (k0_pay2 x0 w0 k0_pay1))) -∗ K ⟨⟩))
      ⊢ wp frame (wpE (defs₀ (F := F)) Variants.none c none) E (cc0__lstm_kernel i a2 h2 a3 h3 a4 h4 a5 h5 a6 h6 a7 h7 a8 h8 a9 h9) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f9, %hf9, H9⟩, Hk⟩
  obtain rfl := h2.eq_unread hf0; obtain rfl := h3.eq_unread hf1; obtain rfl := h4.eq_unread hf2; obtain rfl := h5.eq_unread hf3
  obtain rfl := h9.eq_unread hf9
  sl_exec (disch := first | exact hc0 | exact hc1)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  iexists _; isplitr
  swap; · iexact H9
  ipureintro
  sl_unfold_words
  rw [View.read_writes_cons_unit_zero _ _ origin2]
  simp only [View.readAt_unit_zero (S := S512x128) _ _ origin2, View.readAt_unit_zero (S := S128x8192) _ _ origin2, View.readAt_unit_zero (S := S512x8192) _ _ origin2, View.readAt_unit_zero (S := S512x2048) _ _ origin2, View.readCov_cons_toLoadRect, hf0, hf1, hf2, hf3, hf9]

set_option maxHeartbeats 4000000 in
/-- The last block: the scratch gains the two products, and the result buffers take the gates of the finished
    pre-activation and the cell-state block. -/
theorem run_last (c : Dev nD) (i : grid0.Coords)
    (a2 : Memref sig .tc .vmem S512x128 .f32) (h2 : a2.IsWhole) (a3 : Memref sig .tc .vmem S512x128 .f32) (h3 : a3.IsWhole)
    (a4 : Memref sig .tc .vmem S128x8192 .f32) (h4 : a4.IsWhole) (a5 : Memref sig .tc .vmem S128x8192 .f32) (h5 : a5.IsWhole)
    (a6 : Memref sig .tc .vmem S512x2048 .f32) (h6 : a6.IsWhole) (a7 : Memref sig .tc .vmem S512x2048 .f32) (h7 : a7.IsWhole)
    (a8 : Memref sig .tc .vmem S512x2048 .f32) (h8 : a8.IsWhole) (a9 : Memref sig .tc .vmem S512x8192 .f32) (h9 : a9.IsWhole)
    (hc0 : ¬isFirst i) (hc1 : isLast i)
    (x0 x1 : Vec F S512x128 .f32) (w0 w1 : Vec F S128x8192 .f32) (cb o5 o6 : Vec F S512x2048 .f32) (acc : Vec F S512x8192 .f32)
    (E : Set ℕ) (K : PUnit → sProp 𝕄) :
    iprop(owns (c : Thread nD τ) a2 fullShare x0 ∗ owns (c : Thread nD τ) a3 fullShare x1 ∗ owns (c : Thread nD τ) a4 fullShare w0 ∗ owns (c : Thread nD τ) a5 fullShare w1 ∗ owns (c : Thread nD τ) a6 fullShare cb ∗ owns (c : Thread nD τ) a7 fullShare o5 ∗ owns (c : Thread nD τ) a8 fullShare o6 ∗ owns (c : Thread nD τ) a9 fullShare acc
        ∗ (iprop(owns (c : Thread nD τ) a2 fullShare x0 ∗ owns (c : Thread nD τ) a3 fullShare x1 ∗ owns (c : Thread nD τ) a4 fullShare w0 ∗ owns (c : Thread nD τ) a5 fullShare w1 ∗ owns (c : Thread nD τ) a6 fullShare cb
            ∗ owns (c : Thread nD τ) a7 fullShare (k0_pay5 (k0_pay3 x1 w1 (k0_pay2 x0 w0 acc)) cb)
            ∗ owns (c : Thread nD τ) a8 fullShare (k0_pay4 (k0_pay3 x1 w1 (k0_pay2 x0 w0 acc)) cb)
            ∗ owns (c : Thread nD τ) a9 fullShare (k0_pay3 x1 w1 (k0_pay2 x0 w0 acc))) -∗ K ⟨⟩))
      ⊢ wp frame (wpE (defs₀ (F := F)) Variants.none c none) E (cc0__lstm_kernel i a2 h2 a3 h3 a4 h4 a5 h5 a6 h6 a7 h7 a8 h8 a9 h9) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%f9, %hf9, H9⟩, Hk⟩
  obtain rfl := h2.eq_unread hf0; obtain rfl := h3.eq_unread hf1; obtain rfl := h4.eq_unread hf2; obtain rfl := h5.eq_unread hf3
  obtain rfl := h6.eq_unread hf6; obtain rfl := h7.eq_unread hf7; obtain rfl := h8.eq_unread hf8; obtain rfl := h9.eq_unread hf9
  sl_exec (disch := first | exact hc0 | exact hc1)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H6]
  · iexists _; isplitr
    · ipureintro; exact hf6
    · iexact H6
  isplitl [H7]
  · iexists _; isplitr
    swap; · iexact H7
    ipureintro
    sl_unfold_words
    rw [View.read_writes_cons_unit_zero _ _ origin2]
    simp only [View.readAt_unit_zero (S := S512x128) _ _ origin2, View.readAt_unit_zero (S := S128x8192) _ _ origin2, View.readAt_unit_zero (S := S512x8192) _ _ origin2, View.readAt_unit_zero (S := S512x2048) _ _ origin2, View.readCov_cons_toLoadRect, hf0, hf1, hf2, hf3, hf6, hf9]
  isplitl [H8]
  · iexists _; isplitr
    swap; · iexact H8
    ipureintro
    sl_unfold_words
    rw [View.read_writes_cons_unit_zero _ _ origin2]
    simp only [View.readAt_unit_zero (S := S512x128) _ _ origin2, View.readAt_unit_zero (S := S128x8192) _ _ origin2, View.readAt_unit_zero (S := S512x8192) _ _ origin2, View.readAt_unit_zero (S := S512x2048) _ _ origin2, View.readCov_cons_toLoadRect, hf0, hf1, hf2, hf3, hf6, hf9]
  iexists _; isplitr
  swap; · iexact H9
  ipureintro
  sl_unfold_words
  rw [View.read_writes_cons_unit_zero _ _ origin2]
  simp only [View.readAt_unit_zero (S := S512x128) _ _ origin2, View.readAt_unit_zero (S := S128x8192) _ _ origin2, View.readAt_unit_zero (S := S512x8192) _ _ origin2, View.readAt_unit_zero (S := S512x2048) _ _ origin2, View.readCov_cons_toLoadRect, hf0, hf1, hf2, hf3, hf9]

end Cert.Kernel.Cell

end
-- ==== Proof.K.Oblig.lean ====
/-
  The body obligation of the pipelined region, at every grid point.

  Every input window's current buffer holds its block of the argument array, fetched at the point or kept from
  the point before (the cell-state block is fetched once per row half). A point whose block number is neither 0
  nor 15 finds the scratch at what the point before left and leaves it two products further; block 0 finds it at
  anything and leaves it at the first two products over zero; block 15 also fills the two result buffers, which
  the pipeline writes back there and only there — at every other point those two windows are idle and their
  buffers handed back untouched.
-/
import proofs.«154079_j8632884265137_2_alg».proof.Proof.K.Body
set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions over the grid -/

theorem first_iff : ∀ t : Fin cfg0.N, isFirst (grid0.coords t) ↔ t.val % 16 = 0 :=
  (by decide +kernel : ∀ t : Fin grid0.N, isFirst (grid0.coords t) ↔ t.val % 16 = 0)
theorem last_iff : ∀ t : Fin cfg0.N, isLast (grid0.coords t) ↔ t.val % 16 = 15 :=
  (by decide +kernel : ∀ t : Fin grid0.N, isLast (grid0.coords t) ↔ t.val % 16 = 15)

/-- Away from block 15 the two result windows are idle, -/
theorem idle_5 : ∀ t : Fin cfg0.N, ¬isLast (grid0.coords t) → cfg0.idle 5 (grid0.coords t) = true := by decide +kernel
theorem idle_6 : ∀ t : Fin cfg0.N, ¬isLast (grid0.coords t) → cfg0.idle 6 (grid0.coords t) = true := by decide +kernel
/-- and not written back; -/
theorem noFlush_5 : ∀ t : Fin cfg0.N, ¬isLast (grid0.coords t) → (cfg0.win 5).flush t = false := by decide +kernel
theorem noFlush_6 : ∀ t : Fin cfg0.N, ¬isLast (grid0.coords t) → (cfg0.win 6).flush t = false := by decide +kernel
/-- at block 15 they are live. -/
theorem live_5 : ∀ t : Fin cfg0.N, isLast (grid0.coords t) → cfg0.idle 5 (grid0.coords t) = false := by decide +kernel
theorem live_6 : ∀ t : Fin cfg0.N, isLast (grid0.coords t) → cfg0.idle 6 (grid0.coords t) = false := by decide +kernel

/-! ## The staging memrefs at a point -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)

/-! ## What the proof data says, window by window -/

theorem A_eq (c : Dev nD) (w : Fin cfg0.W) : (dats m 0 c).A w = V m c (Pipeline.arrRef spec0 w) := by dsimp only [dats]

theorem after_0 (c : Dev nD) (t : Fin cfg0.N) : (dats m 0 c).after 0 t = blk m c 0 t := by dsimp only [dats]
theorem before_0 (c : Dev nD) (t : Fin cfg0.N) (d) : (dats m 0 c).before 0 t d = blk m c 0 t :=
  ((dats m 0 c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem leaves_0 (c : Dev nD) (t : Fin cfg0.N) :
    (dats m 0 c).leavesExact 0 t = owns (c : Thread nD τ) (ms0 t) fullShare (blk m c 0 t) := by
  unfold Dat.leavesExact; rw [show cfg0.idle 0 (cfg0.grid.coords t) = false from rfl, after_0]

theorem after_1 (c : Dev nD) (t : Fin cfg0.N) : (dats m 0 c).after 1 t = blk m c 1 t := by dsimp only [dats]
theorem before_1 (c : Dev nD) (t : Fin cfg0.N) (d) : (dats m 0 c).before 1 t d = blk m c 1 t :=
  ((dats m 0 c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem leaves_1 (c : Dev nD) (t : Fin cfg0.N) :
    (dats m 0 c).leavesExact 1 t = owns (c : Thread nD τ) (ms1 t) fullShare (blk m c 1 t) := by
  unfold Dat.leavesExact; rw [show cfg0.idle 1 (cfg0.grid.coords t) = false from rfl, after_1]

theorem after_2 (c : Dev nD) (t : Fin cfg0.N) : (dats m 0 c).after 2 t = blk m c 2 t := by dsimp only [dats]
theorem before_2 (c : Dev nD) (t : Fin cfg0.N) (d) : (dats m 0 c).before 2 t d = blk m c 2 t :=
  ((dats m 0 c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem leaves_2 (c : Dev nD) (t : Fin cfg0.N) :
    (dats m 0 c).leavesExact 2 t = owns (c : Thread nD τ) (ms2 t) fullShare (blk m c 2 t) := by
  unfold Dat.leavesExact; rw [show cfg0.idle 2 (cfg0.grid.coords t) = false from rfl, after_2]

theorem after_3 (c : Dev nD) (t : Fin cfg0.N) : (dats m 0 c).after 3 t = blk m c 3 t := by dsimp only [dats]
theorem before_3 (c : Dev nD) (t : Fin cfg0.N) (d) : (dats m 0 c).before 3 t d = blk m c 3 t :=
  ((dats m 0 c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem leaves_3 (c : Dev nD) (t : Fin cfg0.N) :
    (dats m 0 c).leavesExact 3 t = owns (c : Thread nD τ) (ms3 t) fullShare (blk m c 3 t) := by
  unfold Dat.leavesExact; rw [show cfg0.idle 3 (cfg0.grid.coords t) = false from rfl, after_3]

theorem after_4 (c : Dev nD) (t : Fin cfg0.N) : (dats m 0 c).after 4 t = blk m c 4 t := by dsimp only [dats]
theorem before_4 (c : Dev nD) (t : Fin cfg0.N) (d) : (dats m 0 c).before 4 t d = blk m c 4 t :=
  ((dats m 0 c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)
theorem leaves_4 (c : Dev nD) (t : Fin cfg0.N) :
    (dats m 0 c).leavesExact 4 t = owns (c : Thread nD τ) (ms4 t) fullShare (blk m c 4 t) := by
  unfold Dat.leavesExact; rw [show cfg0.idle 4 (cfg0.grid.coords t) = false from rfl, after_4]

theorem after_5 (c : Dev nD) (t : Fin cfg0.N) : (dats m 0 c).after 5 t = k0_pay5 (accAt m c t.val t.isLt) (blk m c 4 t) := by dsimp only [dats]
theorem after_6 (c : Dev nD) (t : Fin cfg0.N) : (dats m 0 c).after 6 t = k0_pay4 (accAt m c t.val t.isLt) (blk m c 4 t) := by dsimp only [dats]

/-! ## The scratch between points -/

theorem Phi_castSucc (c : Dev nD) (t : Fin cfg0.N) : (dats m 0 c).Φ t.castSucc = Phi m c t.val (Nat.le_of_lt t.isLt) := by
  dsimp only [dats]; simp only [Fin.coe_castSucc]
theorem Phi_succ (c : Dev nD) (t : Fin cfg0.N) :
    (dats m 0 c).Φ t.succ = owns (c : Thread nD τ) scr fullShare (accAt m c t.val t.isLt) := rfl
theorem Phi_pos (c : Dev nD) (n : ℕ) (h : n ≤ cfg0.N) (hz : n ≠ 0) :
    Phi m c n h = owns (c : Thread nD τ) scr fullShare (accAt m c (n - 1) (by omega)) := by
  cases n with
  | zero => exact absurd rfl hz
  | succ n => rfl
theorem Phi_zero (c : Dev nD) (n : ℕ) (h : n ≤ cfg0.N) (hz : n = 0) :
    Phi m c n h = iprop(∃ d, owns (c : Thread nD τ) scr fullShare d) := by
  subst hz
  show (Pipeline.scopedRest (Ix := Unit) (Name := ℕ) (U := UR sig nD τ) (Lvl := ℕ) (Val := Elt F) spec0 c : sProp 𝕄) = _
  rw [scopedRest0_eq]; simp only [scr, owns_whole]; rfl
/-- Whatever the position, the invariant holds the scratch at some contents. -/
theorem Phi_some (c : Dev nD) (n : ℕ) (h : n ≤ cfg0.N) : Phi m c n h ⊢ iprop(∃ d, owns (c : Thread nD τ) scr fullShare d) := by
  by_cases hz : n = 0
  · rw [Phi_zero m c n h hz]
  · rw [Phi_pos m c n h hz]; iintro H; iexists _; iexact H

theorem accAt_first (c : Dev nD) (t : Fin cfg0.N) (h0 : t.val % 16 = 0) :
    accAt m c t.val t.isLt = k0_pay3 (blk m c 1 t) (blk m c 3 t) (k0_pay2 (blk m c 0 t) (blk m c 2 t) k0_pay1) := by
  obtain ⟨n, hn⟩ := t
  cases n with
  | zero => rfl
  | succ n => exact (show accAt m c (n + 1) hn = k0_pay3 _ _ (k0_pay2 _ _ (if (n + 1) % 16 = 0 then k0_pay1 else _)) from rfl).trans (by rw [if_pos h0])
theorem accAt_next (c : Dev nD) (t : Fin cfg0.N) (h0 : ¬t.val % 16 = 0) :
    accAt m c t.val t.isLt = k0_pay3 (blk m c 1 t) (blk m c 3 t) (k0_pay2 (blk m c 0 t) (blk m c 2 t)
      (accAt m c (t.val - 1) (Nat.lt_of_le_of_lt (Nat.sub_le _ _) t.isLt))) := by
  obtain ⟨n, hn⟩ := t
  cases n with
  | zero => exact absurd (Nat.zero_mod _) h0
  | succ n => exact (show accAt m c (n + 1) hn = k0_pay3 _ _ (k0_pay2 _ _ (if (n + 1) % 16 = 0 then k0_pay1 else _)) from rfl).trans (by rw [if_neg h0]; rfl)

/-! ## The obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4]
  rw [show (dats m 0 c).owesAt () t.succ = (dats m 0 c).owesAt () t.castSucc from rfl, Phi_succ, Phi_castSucc]
  have hN : t.val < 32 := lt_of_lt_of_eq t.isLt (show cfg0.N = 32 from N_0)
  by_cases h0 : t.val % 16 = 0
  · have hc0 : isFirst (grid0.coords t) := (first_iff t).mpr h0
    have hc1 : ¬isLast (grid0.coords t) := fun h => by have := (last_iff t).mp h; omega
    rw [Dat.leavesExact_idle (dats m 0 c) 5 t (idle_5 t hc1) (noFlush_5 t hc1), Dat.leavesExact_idle (dats m 0 c) 6 t (idle_6 t hc1) (noFlush_6 t hc1)]
    rw [accAt_first m c t h0]
    iintro ⟨HS, Ho, ⟨%d0, H0⟩, ⟨%d1, H1⟩, ⟨%d2, H2⟩, ⟨%d3, H3⟩, ⟨%d4, H4⟩, H5, H6⟩
    ihave ⟨%dS, HS⟩ := (Phi_some m c t.val (Nat.le_of_lt t.isLt)) $$ HS
    iapply (run_first c (grid0.coords t) (ms0 t) (hs0 t) (ms1 t) (hs1 t) (ms2 t) (hs2 t) (ms3 t) (hs3 t) (ms4 t) (hs4 t) (ms5 t) (hs5 t) (ms6 t) (hs6 t) scr (Memref.isWhole_whole _) hc0 hc1 (blk m c 0 t) (blk m c 1 t) (blk m c 2 t) (blk m c 3 t) dS Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc0 : ¬isFirst (grid0.coords t) := fun h => h0 ((first_iff t).mp h)
    have hz : t.val ≠ 0 := fun h => h0 (by rw [h])
    rw [Phi_pos m c t.val (Nat.le_of_lt t.isLt) hz, accAt_next m c t h0]
    by_cases h1 : t.val % 16 = 15
    · have hc1 : isLast (grid0.coords t) := (last_iff t).mpr h1
      rw [show (dats m 0 c).leavesExact 5 t = owns (c : Thread nD τ) (ms5 t) fullShare ((dats m 0 c).after 5 t) from by
        unfold Dat.leavesExact; rw [live_5 t hc1]]
      rw [show (dats m 0 c).leavesExact 6 t = owns (c : Thread nD τ) (ms6 t) fullShare ((dats m 0 c).after 6 t) from by
        unfold Dat.leavesExact; rw [live_6 t hc1]]
      rw [after_5, after_6, accAt_next m c t h0]
      iintro ⟨HS, Ho, ⟨%d0, H0⟩, ⟨%d1, H1⟩, ⟨%d2, H2⟩, ⟨%d3, H3⟩, ⟨%d4, H4⟩, ⟨%d5, H5⟩, ⟨%d6, H6⟩⟩
      iapply (run_last c (grid0.coords t) (ms0 t) (hs0 t) (ms1 t) (hs1 t) (ms2 t) (hs2 t) (ms3 t) (hs3 t) (ms4 t) (hs4 t) (ms5 t) (hs5 t) (ms6 t) (hs6 t) scr (Memref.isWhole_whole _) hc0 hc1 (blk m c 0 t) (blk m c 1 t) (blk m c 2 t) (blk m c 3 t) (blk m c 4 t)
        ((dats m 0 c).before 5 t d5) ((dats m 0 c).before 6 t d6) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬isLast (grid0.coords t) := fun h => h1 ((last_iff t).mp h)
      rw [Dat.leavesExact_idle (dats m 0 c) 5 t (idle_5 t hc1) (noFlush_5 t hc1), Dat.leavesExact_idle (dats m 0 c) 6 t (idle_6 t hc1) (noFlush_6 t hc1)]
      iintro ⟨HS, Ho, ⟨%d0, H0⟩, ⟨%d1, H1⟩, ⟨%d2, H2⟩, ⟨%d3, H3⟩, ⟨%d4, H4⟩, H5, H6⟩
      iapply (run_mid c (grid0.coords t) (ms0 t) (hs0 t) (ms1 t) (hs1 t) (ms2 t) (hs2 t) (ms3 t) (hs3 t) (ms4 t) (hs4 t) (ms5 t) (hs5 t) (ms6 t) (hs6 t) scr (Memref.isWhole_whole _) hc0 hc1 (blk m c 0 t) (blk m c 1 t) (blk m c 2 t) (blk m c 3 t)
        (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Cell

end
-- ==== Proof.K.Launch.lean ====
/-
  The launch of the region and the run of the whole program.

  Seven windows stand on six arrays: the weight matrix is read through two windows, one at its upper 2048 rows
  and one at its lower. At entry every array is held whole at the full share; the weight matrix's share is
  halved, one half to each of its two windows, and every other window takes its array whole. The kernel names
  no semaphore of its own and leaves no unscoped buffer outside the windows; its one scoped buffer that is no
  staging buffer is the scratch, which the invariant carries. The run ends with every window's array at what
  the write-backs made of it: an input array as it was, each result array overwritten block by block.
-/
import proofs.«154079_j8632884265137_2_alg».proof.Proof.K.Oblig
set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays behind the windows, each once. -/
theorem arrRefs_eq : Finset.univ.image (Pipeline.arrRef spec0)
    = ([Pipeline.arrRef spec0 0, Pipeline.arrRef spec0 1, Pipeline.arrRef spec0 2, Pipeline.arrRef spec0 4, Pipeline.arrRef spec0 5, Pipeline.arrRef spec0 6] : List (Ref sig .tc)).toFinset := by decide
/-- The two weight windows stand on one array. -/
theorem arr_3_2 : Pipeline.arrRef spec0 3 = Pipeline.arrRef spec0 2 := by decide
/-- A points-to of the buffer behind an array, along an equation of arrays. -/
theorem pt_congr (c : Dev nD) {b b' : Ref sig .tc} (h : b = b') (q : PosShare TreeShare) :
    ((((c.tc : Thread nD τ).loc b) ↦{q} V m c b : sProp 𝕄)) = (((c.tc : Thread nD τ).loc b') ↦{q} V m c b') := by
  subst h; rfl

/-- The buffers behind the windows, one by one. -/
theorem arrBufs_eq (c : Dev nD) : (Pipeline.arrBufs spec0 c (V m c) : sProp 𝕄)
    = iprop((((c.tc : Thread nD τ).loc (Pipeline.arrRef spec0 0)) ↦{fullShare} V m c (Pipeline.arrRef spec0 0)) ∗ (((c.tc : Thread nD τ).loc (Pipeline.arrRef spec0 1)) ↦{fullShare} V m c (Pipeline.arrRef spec0 1)) ∗ (((c.tc : Thread nD τ).loc (Pipeline.arrRef spec0 2)) ↦{fullShare} V m c (Pipeline.arrRef spec0 2)) ∗ (((c.tc : Thread nD τ).loc (Pipeline.arrRef spec0 4)) ↦{fullShare} V m c (Pipeline.arrRef spec0 4)) ∗ (((c.tc : Thread nD τ).loc (Pipeline.arrRef spec0 5)) ↦{fullShare} V m c (Pipeline.arrRef spec0 5)) ∗ (((c.tc : Thread nD τ).loc (Pipeline.arrRef spec0 6)) ↦{fullShare} V m c (Pipeline.arrRef spec0 6))) :=
  bigSep_eq_bigSepL_of_eq [Pipeline.arrRef spec0 0, Pipeline.arrRef spec0 1, Pipeline.arrRef spec0 2, Pipeline.arrRef spec0 4, Pipeline.arrRef spec0 5, Pipeline.arrRef spec0 6] arrRefs_eq (by decide) _

/-- A window's array in the proof data's `arrays`, as a points-to of the buffer behind it. -/
theorem arr_pt (c : Dev nD) (w : Fin cfg0.W) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  rw [(arr_whole0 w).set_eq_univ]; rfl

/-- The share each window holds its array at. -/
theorem share_0 (c : Dev nD) : (dats m 0 c).share 0 = fullShare := by
  unfold Dat.share; rw [if_neg (by decide)]; dsimp only [dats]
theorem share_1 (c : Dev nD) : (dats m 0 c).share 1 = fullShare := by
  unfold Dat.share; rw [if_neg (by decide)]; dsimp only [dats]
theorem share_2 (c : Dev nD) : (dats m 0 c).share 2 = fullShare.left := by
  unfold Dat.share; rw [if_neg (by decide)]; dsimp only [dats]
theorem share_3 (c : Dev nD) : (dats m 0 c).share 3 = fullShare.right := by
  unfold Dat.share; rw [if_neg (by decide)]; dsimp only [dats]
theorem share_4 (c : Dev nD) : (dats m 0 c).share 4 = fullShare := by
  unfold Dat.share; rw [if_neg (by decide)]; dsimp only [dats]
theorem share_5 (c : Dev nD) : (dats m 0 c).share 5 = fullShare := by
  unfold Dat.share; rw [if_pos (by decide)]
theorem share_6 (c : Dev nD) : (dats m 0 c).share 6 = fullShare := by
  unfold Dat.share; rw [if_pos (by decide)]

/-- The six buffers, whole at the full share, make the seven windows' arrays: the weight matrix's share halved
    between its two windows. -/
theorem hsplit (c : Dev nD) : (Pipeline.arrBufs spec0 c (V m c) : sProp 𝕄) ⊢ (dats m 0 c).arrays ((dats m 0 c).arrAt · 0) := by
  have e : (dats m 0 c).arrays ((dats m 0 c).arrAt · 0)
      = bigSep Finset.univ fun w : Fin 7 => ((((c.tc : Thread nD τ).loc (Pipeline.arrRef spec0 w)) ↦{(dats m 0 c).share w} V m c (Pipeline.arrRef spec0 w)) : sProp 𝕄) := by
    unfold Dat.arrays
    exact bigSep_congr fun w _ => arr_pt m c w
  rw [arrBufs_eq, e, bigSep_W0, share_0, share_1, share_2, share_3, share_4, share_5, share_6, pt_congr m c arr_3_2 fullShare.right]
  iintro ⟨H0, H1, H3, H2, H5, H6⟩
  ihave ⟨H3a, H3b⟩ := (pointsTo_share (PosShare.mem_left_op_right fullShare)).1 $$ H3
  isplitl [H0]; · iexact H0
  isplitl [H1]; · iexact H1
  isplitl [H3a]; · iexact H3a
  isplitl [H3b]; · iexact H3b
  isplitl [H2]; · iexact H2
  isplitl [H5]; · iexact H5
  iexact H6

/-- @main is the region and the return. -/
theorem hmain : Pipeline.HMain (Ix := Unit) (Name := ℕ) (U := UR sig nD τ) (Lvl := ℕ) cfgs 0 defs₀ Variants.none m (main (F := F)) (V m) :=
  Pipeline.hmain_region cfgs 0 defs₀ Variants.none m main (fun _ => rfl)

/-- After the last point the invariant gives the scratch back at some contents. -/
theorem hout (c : Dev nD) : (dats m 0 c).Φ (Fin.last cfg0.N)
    ⊢ iprop((BI.emp : sProp 𝕄) ∗ Pipeline.scopedRest (Ix := Unit) (Name := ℕ) (U := UR sig nD τ) (Lvl := ℕ) (Val := Elt F) spec0 c) := by
  have h0 : (Pipeline.scopedRest (Ix := Unit) (Name := ℕ) (U := UR sig nD τ) (Lvl := ℕ) (Val := Elt F) spec0 c : sProp 𝕄)
      = iprop(∃ d, owns (c : Thread nD τ) scr fullShare d) := Phi_zero m c 0 (Nat.zero_le _) rfl
  rw [h0]
  show Phi m c (Fin.last cfg0.N).val (Nat.le_of_lt_succ (Fin.last cfg0.N).isLt) ⊢ _
  iintro H
  isplitr
  · iempintro
  · iapply (Phi_some m c (Fin.last cfg0.N).val (Nat.le_of_lt_succ (Fin.last cfg0.N).isLt)); iexact H

/-- What the run ends with: every window's array at what the write-backs made of it. -/
def RunPost (r : PUnit × MemSt nD τ sig (Elt F)) : Prop :=
  ∀ c : Dev nD, ∀ w, r.2.mem ((cfg0.spec w).arr.view.loc (c.tc : Thread nD τ)) = (dats m 0 c).arrAt w cfg0.N

set_option backward.isDefEq.respectTransparency.types false in
/-- Every weakly fair execution of @main terminates, nothing faulting, in such a state. -/
theorem run_main : θ_run defs (onTc (τ := τ) (main (F := F))) (s₀ m ρ) (RunPost m) :=
  Pipeline.θ_run_region_noSem_shared cfgs (dats m) () cellOf_inj 0 winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m) (hsplit := hsplit m)
    (X := fun _ => BI.emp) (Y := fun _ => BI.emp) (Z := fun c => Pipeline.unscopedRest spec0 c (V m c))
    (hX := fun c => by
      iintro H
      isplitr
      · iempintro
      · iexact H)
    (hin := fun c => by
      show _ ⊢ (Pipeline.scopedRest (Ix := Unit) (Name := ℕ) (U := UR sig nD τ) (Lvl := ℕ) (Val := Elt F) spec0 c : sProp 𝕄)
      iintro ⟨-, H⟩
      iexact H)
    (hout := hout m)
    (QY := fun _ _ => True)
    (hY := fun c s' => by
      iintro ⟨-, -, HSI⟩
      imodintro
      isplitr
      · ipureintro; trivial
      · iexact HSI)
    (hQ := fun s h c w => (h c).1 w)

/-- The frame at any instance: the program runs to the end, nothing faults, and the four argument arrays end as
    they were (each is an input window's array, which no write-back touches). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c 0).trans ((dats m 0 c).arrAt_in 0 rfl _), (h c 1).trans ((dats m 0 c).arrAt_in 1 rfl _),
     (h c 4).trans ((dats m 0 c).arrAt_in 4 rfl _), (h c 2).trans ((dats m 0 c).arrAt_in 2 rfl _)⟩) (run_main m ρ)

end Cert.Kernel.Cell

end
-- ==== Proof.KI.Data.lean ====
/-
  The proof data of the one pipelined region.

  The grid has 2 × 16 points, walked in order: point `t` works on the row half `t / 16` and the block `t % 16` of
  the hidden axis. A scratch buffer of 512 × 8192 entries carries the running pre-activation of the row half:
  it is zeroed at block 0, every block adds the product of `x`'s block with the matching 128 weight rows and
  then the product of `h`'s block with the weight rows 2048 further down, and at block 15 the gates are read
  off it and the two result blocks stored. `accAt n` is what the scratch holds after point `n`, by recursion on
  the point; between points the invariant holds the scratch at exactly that. The weight matrix is staged twice,
  through two windows at different rows, so the two windows hold it at the two halves of the full share.
-/
import proofs.«154079_j8632884265137_2_alg».proof.Proof.Gen.KernelIdeal.Launch
import proofs.«154079_j8632884265137_2_alg».proof.Proof.Gen.KernelIdeal.Skeleton
import proofs.«154079_j8632884265137_2_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the region finds them: the launch contents (no host operation comes before the region). -/
abbrev V (c : Dev nD) (b : Ref sig .tc) : Buf (Elt F) ((c.tc : Thread nD τ).loc b) := m ((c.tc : Thread nD τ).loc b)

/-- Window `w`'s block at point `t`, read off its array. -/
def blk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the scratch holds after point `n`: zero at a first block, else what the point before left, plus this
    block's two products. -/
def accAt (c : Dev nD) : (n : ℕ) → n < cfg0.N → Vec F S512x8192 .f32
  | 0, h => k0_pay3 (blk m c 1 ⟨0, h⟩) (blk m c 3 ⟨0, h⟩) (k0_pay2 (blk m c 0 ⟨0, h⟩) (blk m c 2 ⟨0, h⟩) k0_pay1)
  | n + 1, h => k0_pay3 (blk m c 1 ⟨n + 1, h⟩) (blk m c 3 ⟨n + 1, h⟩) (k0_pay2 (blk m c 0 ⟨n + 1, h⟩) (blk m c 2 ⟨n + 1, h⟩)
      (if (n + 1) % 16 = 0 then k0_pay1 else accAt c n (Nat.lt_of_succ_lt h)))

/-- The scratch accumulator as a memref. -/
abbrev scr : Memref sig .tc .vmem S512x8192 .f32 := Memref.whole cc0_scratch0

/-- The invariant before position `n`: before the first point the scratch at anything (the core's scoped
    buffers that are no staging buffer: the scratch alone); afterwards at what the point before left in it. -/
def Phi (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scr fullShare (accAt m c n hn)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => blk m c 0 t
    | ⟨1, _⟩ => blk m c 1 t
    | ⟨2, _⟩ => blk m c 2 t
    | ⟨3, _⟩ => blk m c 3 t
    | ⟨4, _⟩ => blk m c 4 t
    | ⟨5, _⟩ => k0_pay5 (accAt m c t.val t.isLt) (blk m c 4 t)
    | ⟨6, _⟩ => k0_pay4 (accAt m c t.val t.isLt) (blk m c 4 t)
  Φ t := Phi m c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
  owed _ := 0

end Cert.KernelIdeal.Cell

end
-- ==== Proof.KI.Body.lean ====
/-
  The kernel body, run once in each of the three situations a grid point can be in.

  At the first block of the hidden axis the body zeroes the scratch before accumulating; at the last block it
  reads the finished pre-activation, loads the cell-state block and stores the two result blocks; in between it
  only accumulates. In each case the scratch ends at this block's two products added, in order, to what it held
  (zero at the first block), every input buffer ends as it was, and at the last block the two result buffers end
  at the new hidden state and the new cell state of the finished pre-activation.
-/
import proofs.«154079_j8632884265137_2_alg».proof.Proof.KI.Data
import proofs.«154079_j8632884265137_2_alg».proof.Proof.LibWholeStore
set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first conditional of the body: this is block 0 of the hidden axis. -/
abbrev isFirst (i : grid0.Coords) : Prop := (Scalar.cmpi .ne (Scalar.extui (Scalar.cmpi .eq (BitVec.ofNat 32 (i 1).val) 0#32)) 0#32) = 1#1
/-- The second: this is block 15. -/
abbrev isLast (i : grid0.Coords) : Prop := k0_cond2 i = 1#1

/-- The offset of every access of the body: the origin. -/
theorem origin2 : (![0, 0] : Fin 2 → ℕ) = fun _ => 0 := by funext a; fin_cases a <;> rfl

set_option maxHeartbeats 4000000 in
/-- A middle block: the scratch gains the two products; nothing else changes. -/
theorem run_mid (c : Dev nD) (i : grid0.Coords)
    (a2 : Memref sig .tc .vmem S512x128 .f32) (h2 : a2.IsWhole) (a3 : Memref sig .tc .vmem S512x128 .f32) (h3 : a3.IsWhole)
    (a4 : Memref sig .tc .vmem S128x8192 .f32) (h4 : a4.IsWhole) (a5 : Memref sig .tc .vmem S128x8192 .f32) (h5 : a5.IsWhole)
    (a6 : Memref sig .tc .vmem S512x2048 .f32) (h6 : a6.IsWhole) (a7 : Memref sig .tc .vmem S512x2048 .f32) (h7 : a7.IsWhole)
    (a8 : Memref sig .tc .vmem S512x2048 .f32) (h8 : a8.IsWhole) (a9 : Memref sig .tc .vmem S512x8192 .f32) (h9 : a9.IsWhole)
    (hc0 : ¬isFirst i) (hc1 : ¬isLast i)
    (x0 x1 : Vec F S512x128 .f32) (w0 w1 : Vec F S128x8192 .f32) (acc : Vec F S512x8192 .f32)
    (E : Set ℕ) (K : PUnit → sProp 𝕄) :
    iprop(owns (c : Thread nD τ) a2 fullShare x0 ∗ owns (c : Thread nD τ) a3 fullShare x1 ∗ owns (c : Thread nD τ) a4 fullShare w0 ∗ owns (c : Thread nD τ) a5 fullShare w1 ∗ owns (c : Thread nD τ) a9 fullShare acc
        ∗ (iprop(owns (c : Thread nD τ) a2 fullShare x0 ∗ owns (c : Thread nD τ) a3 fullShare x1 ∗ owns (c : Thread nD τ) a4 fullShare w0 ∗ owns (c : Thread nD τ) a5 fullShare w1
            ∗ owns (c : Thread nD τ) a9 fullShare (k0_pay3 x1 w1 (k0_pay2 x0 w0 acc))) -∗ K ⟨⟩))
      ⊢ wp frame (wpE (defs₀ (F := F)) Variants.none c none) E (cc0__lstm_kernel i a2 h2 a3 h3 a4 h4 a5 h5 a6 h6 a7 h7 a8 h8 a9 h9) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f9, %hf9, H9⟩, Hk⟩
  obtain rfl := h2.eq_unread hf0; obtain rfl := h3.eq_unread hf1; obtain rfl := h4.eq_unread hf2; obtain rfl := h5.eq_unread hf3
  obtain rfl := h9.eq_unread hf9
  sl_exec (disch := first | exact hc0 | exact hc1)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  iexists _; isplitr
  swap; · iexact H9
  ipureintro
  sl_unfold_words
  rw [View.read_writes_cons_unit_zero _ _ origin2]
  simp only [View.readAt_unit_zero (S := S512x128) _ _ origin2, View.readAt_unit_zero (S := S128x8192) _ _ origin2, View.readAt_unit_zero (S := S512x8192) _ _ origin2, View.readAt_unit_zero (S := S512x2048) _ _ origin2, View.readCov_cons_toLoadRect, hf0, hf1, hf2, hf3, hf9]

set_option maxHeartbeats 4000000 in
/-- The first block: the scratch is zeroed, then gains the two products. -/
theorem run_first (c : Dev nD) (i : grid0.Coords)
    (a2 : Memref sig .tc .vmem S512x128 .f32) (h2 : a2.IsWhole) (a3 : Memref sig .tc .vmem S512x128 .f32) (h3 : a3.IsWhole)
    (a4 : Memref sig .tc .vmem S128x8192 .f32) (h4 : a4.IsWhole) (a5 : Memref sig .tc .vmem S128x8192 .f32) (h5 : a5.IsWhole)
    (a6 : Memref sig .tc .vmem S512x2048 .f32) (h6 : a6.IsWhole) (a7 : Memref sig .tc .vmem S512x2048 .f32) (h7 : a7.IsWhole)
    (a8 : Memref sig .tc .vmem S512x2048 .f32) (h8 : a8.IsWhole) (a9 : Memref sig .tc .vmem S512x8192 .f32) (h9 : a9.IsWhole)
    (hc0 : isFirst i) (hc1 : ¬isLast i)
    (x0 x1 : Vec F S512x128 .f32) (w0 w1 : Vec F S128x8192 .f32) (acc : Vec F S512x8192 .f32)
    (E : Set ℕ) (K : PUnit → sProp 𝕄) :
    iprop(owns (c : Thread nD τ) a2 fullShare x0 ∗ owns (c : Thread nD τ) a3 fullShare x1 ∗ owns (c : Thread nD τ) a4 fullShare w0 ∗ owns (c : Thread nD τ) a5 fullShare w1 ∗ owns (c : Thread nD τ) a9 fullShare acc
        ∗ (iprop(owns (c : Thread nD τ) a2 fullShare x0 ∗ owns (c : Thread nD τ) a3 fullShare x1 ∗ owns (c : Thread nD τ) a4 fullShare w0 ∗ owns (c : Thread nD τ) a5 fullShare w1
            ∗ owns (c : Thread nD τ) a9 fullShare (k0_pay3 x1 w1 (k0_pay2 x0 w0 k0_pay1))) -∗ K ⟨⟩))
      ⊢ wp frame (wpE (defs₀ (F := F)) Variants.none c none) E (cc0__lstm_kernel i a2 h2 a3 h3 a4 h4 a5 h5 a6 h6 a7 h7 a8 h8 a9 h9) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f9, %hf9, H9⟩, Hk⟩
  obtain rfl := h2.eq_unread hf0; obtain rfl := h3.eq_unread hf1; obtain rfl := h4.eq_unread hf2; obtain rfl := h5.eq_unread hf3
  obtain rfl := h9.eq_unread hf9
  sl_exec (disch := first | exact hc0 | exact hc1)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  iexists _; isplitr
  swap; · iexact H9
  ipureintro
  sl_unfold_words
  rw [View.read_writes_cons_unit_zero _ _ origin2]
  simp only [View.readAt_unit_zero (S := S512x128) _ _ origin2, View.readAt_unit_zero (S := S128x8192) _ _ origin2, View.readAt_unit_zero (S := S512x8192) _ _ origin2, View.readAt_unit_zero (S := S512x2048) _ _ origin2, View.readCov_cons_toLoadRect, hf0, hf1, hf2, hf3, hf9]

set_option maxHeartbeats 4000000 in
/-- The last block: the scratch gains the two products, and the result buffers take the gates of the finished
    pre-activation and the cell-state block. -/
theorem run_last (c : Dev nD) (i : grid0.Coords)
    (a2 : Memref sig .tc .vmem S512x128 .f32) (h2 : a2.IsWhole) (a3 : Memref sig .tc .vmem S512x128 .f32) (h3 : a3.IsWhole)
    (a4 : Memref sig .tc .vmem S128x8192 .f32) (h4 : a4.IsWhole) (a5 : Memref sig .tc .vmem S128x8192 .f32) (h5 : a5.IsWhole)
    (a6 : Memref sig .tc .vmem S512x2048 .f32) (h6 : a6.IsWhole) (a7 : Memref sig .tc .vmem S512x2048 .f32) (h7 : a7.IsWhole)
    (a8 : Memref sig .tc .vmem S512x2048 .f32) (h8 : a8.IsWhole) (a9 : Memref sig .tc .vmem S512x8192 .f32) (h9 : a9.IsWhole)
    (hc0 : ¬isFirst i) (hc1 : isLast i)
    (x0 x1 : Vec F S512x128 .f32) (w0 w1 : Vec F S128x8192 .f32) (cb o5 o6 : Vec F S512x2048 .f32) (acc : Vec F S512x8192 .f32)
    (E : Set ℕ) (K : PUnit → sProp 𝕄) :
    iprop(owns (c : Thread nD τ) a2 fullShare x0 ∗ owns (c : Thread nD τ) a3 fullShare x1 ∗ owns (c : Thread nD τ) a4 fullShare w0 ∗ owns (c : Thread nD τ) a5 fullShare w1 ∗ owns (c : Thread nD τ) a6 fullShare cb ∗ owns (c : Thread nD τ) a7 fullShare o5 ∗ owns (c : Thread nD τ) a8 fullShare o6 ∗ owns (c : Thread nD τ) a9 fullShare acc
        ∗ (iprop(owns (c : Thread nD τ) a2 fullShare x0 ∗ owns (c : Thread nD τ) a3 fullShare x1 ∗ owns (c : Thread nD τ) a4 fullShare w0 ∗ owns (c : Thread nD τ) a5 fullShare w1 ∗ owns (c : Thread nD τ) a6 fullShare cb
            ∗ owns (c : Thread nD τ) a7 fullShare (k0_pay5 (k0_pay3 x1 w1 (k0_pay2 x0 w0 acc)) cb)
            ∗ owns (c : Thread nD τ) a8 fullShare (k0_pay4 (k0_pay3 x1 w1 (k0_pay2 x0 w0 acc)) cb)
            ∗ owns (c : Thread nD τ) a9 fullShare (k0_pay3 x1 w1 (k0_pay2 x0 w0 acc))) -∗ K ⟨⟩))
      ⊢ wp frame (wpE (defs₀ (F := F)) Variants.none c none) E (cc0__lstm_kernel i a2 h2 a3 h3 a4 h4 a5 h5 a6 h6 a7 h7 a8 h8 a9 h9) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, ⟨%f8, %hf8, H8⟩, ⟨%f9, %hf9, H9⟩, Hk⟩
  obtain rfl := h2.eq_unread hf0; obtain rfl := h3.eq_unread hf1; obtain rfl := h4.eq_unread hf2; obtain rfl := h5.eq_unread hf3
  obtain rfl := h6.eq_unread hf6; obtain rfl := h7.eq_unread hf7; obtain rfl := h8.eq_unread hf8; obtain rfl := h9.eq_unread hf9
  sl_exec (disch := first | exact hc0 | exact hc1)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact hf3
    · iexact H3
  isplitl [H6]
  · iexists _; isplitr
    · ipureintro; exact hf6
    · iexact H6
  isplitl [H7]
  · iexists _; isplitr
    swap; · iexact H7
    ipureintro
    sl_unfold_words
    rw [View.read_writes_cons_unit_zero _ _ origin2]
    simp only [View.readAt_unit_zero (S := S512x128) _ _ origin2, View.readAt_unit_zero (S := S128x8192) _ _ origin2, View.readAt_unit_zero (S := S512x8192) _ _ origin2, View.readAt_unit_zero (S := S512x2048) _ _ origin2, View.readCov_cons_toLoadRect, hf0, hf1, hf2, hf3, hf6, hf9]
  isplitl [H8]
  · iexists _; isplitr
    swap; · iexact H8
    ipureintro
    sl_unfold_words
    rw [View.read_writes_cons_unit_zero _ _ origin2]
    simp only [View.readAt_unit_zero (S := S512x128) _ _ origin2, View.readAt_unit_zero (S := S128x8192) _ _ origin2, View.readAt_unit_zero (S := S512x8192) _ _ origin2, View.readAt_unit_zero (S := S512x2048) _ _ origin2, View.readCov_cons_toLoadRect, hf0, hf1, hf2, hf3, hf6, hf9]
  iexists _; isplitr
  swap; · iexact H9
  ipureintro
  sl_unfold_words
  rw [View.read_writes_cons_unit_zero _ _ origin2]
  simp only [View.readAt_unit_zero (S := S512x128) _ _ origin2, View.readAt_unit_zero (S := S128x8192) _ _ origin2, View.readAt_unit_zero (S := S512x8192) _ _ origin2, View.readAt_unit_zero (S := S512x2048) _ _ origin2, View.readCov_cons_toLoadRect, hf0, hf1, hf2, hf3, hf9]

end Cert.KernelIdeal.Cell

end
-- ==== Proof.KI.Oblig.lean ====
/-
  The body obligation of the pipelined region, at every grid point.

  Every input window's current buffer holds its block of the argument array, fetched at the point or kept from
  the point before (the cell-state block is fetched once per row half). A point whose block number is neither 0
  nor 15 finds the scratch at what the point before left and leaves it two products further; block 0 finds it at
  anything and leaves it at the first two products over zero; block 15 also fills the two result buffers, which
  the pipeline writes back there and only there — at every other point those two windows are idle and their
  buffers handed back untouched.
-/
import proofs.«154079_j8632884265137_2_alg».proof.Proof.KI.Body
set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions over the grid -/

theorem first_iff : ∀ t : Fin cfg0.N, isFirst (grid0.coords t) ↔ t.val % 16 = 0 :=
  (by decide +kernel : ∀ t : Fin grid0.N, isFirst (grid0.coords t) ↔ t.val % 16 = 0)
theorem last_iff : ∀ t : Fin cfg0.N, isLast (grid0.coords t) ↔ t.val % 16 = 15 :=
  (by decide +kernel : ∀ t : Fin grid0.N, isLast (grid0.coords t) ↔ t.val % 16 = 15)

/-- Away from block 15 the two result windows are idle, -/
theorem idle_5 : ∀ t : Fin cfg0.N, ¬isLast (grid0.coords t) → cfg0.idle 5 (grid0.coords t) = true := by decide +kernel
theorem idle_6 : ∀ t : Fin cfg0.N, ¬isLast (grid0.coords t) → cfg0.idle 6 (grid0.coords t) = true := by decide +kernel
/-- and not written back; -/
theorem noFlush_5 : ∀ t : Fin cfg0.N, ¬isLast (grid0.coords t) → (cfg0.win 5).flush t = false := by decide +kernel
theorem noFlush_6 : ∀ t : Fin cfg0.N, ¬isLast (grid0.coords t) → (cfg0.win 6).flush t = false := by decide +kernel
/-- at block 15 they are live. -/
theorem live_5 : ∀ t : Fin cfg0.N, isLast (grid0.coords t) → cfg0.idle 5 (grid0.coords t) = false := by decide +kernel
theorem live_6 : ∀ t : Fin cfg0.N, isLast (grid0.coords t) → cfg0.idle 6 (grid0.coords t) = false := by decide +kernel

/-! ## The staging memrefs at a point -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)

/-! ## What the proof data says, window by window -/

theorem A_eq (c : Dev nD) (w : Fin cfg0.W) : (dats m 0 c).A w = V m c (Pipeline.arrRef spec0 w) := by dsimp only [dats]

theorem after_0 (c : Dev nD) (t : Fin cfg0.N) : (dats m 0 c).after 0 t = blk m c 0 t := by dsimp only [dats]
theorem before_0 (c : Dev nD) (t : Fin cfg0.N) (d) : (dats m 0 c).before 0 t d = blk m c 0 t :=
  ((dats m 0 c).before_in_eq_fetched 0 rfl (fun _ => rfl) (fun _ _ _ => rfl)
    (fun t => by rw [after_0]; unfold Dat.blockOf blk; rw [A_eq]; try rfl) t d).trans
    (by unfold Dat.fetched Dat.blockOf blk; rw [A_eq]; try rfl)
theorem leaves_0 (c : Dev nD) (t : Fin cfg0.N) :
    (dats m 0 c).leavesExact 0 t = owns (c : Thread nD τ) (ms0 t) fullShare (blk m c 0 t) := by
  unfold Dat.leavesExact; rw [show cfg0.idle 0 (cfg0.grid.coords t) = false from rfl, after_0]

theorem after_1 (c : Dev nD) (t : Fin cfg0.N) : (dats m 0 c).after 1 t = blk m c 1 t := by dsimp only [dats]
theorem before_1 (c : Dev nD) (t : Fin cfg0.N) (d) : (dats m 0 c).before 1 t d = blk m c 1 t :=
  ((dats m 0 c).before_in_eq_fetched 1 rfl (fun _ => rfl) (fun _ _ _ => rfl)
    (fun t => by rw [after_1]; unfold Dat.blockOf blk; rw [A_eq]; try rfl) t d).trans
    (by unfold Dat.fetched Dat.blockOf blk; rw [A_eq]; try rfl)
theorem leaves_1 (c : Dev nD) (t : Fin cfg0.N) :
    (dats m 0 c).leavesExact 1 t = owns (c : Thread nD τ) (ms1 t) fullShare (blk m c 1 t) := by
  unfold Dat.leavesExact; rw [show cfg0.idle 1 (cfg0.grid.coords t) = false from rfl, after_1]

theorem after_2 (c : Dev nD) (t : Fin cfg0.N) : (dats m 0 c).after 2 t = blk m c 2 t := by dsimp only [dats]
theorem before_2 (c : Dev nD) (t : Fin cfg0.N) (d) : (dats m 0 c).before 2 t d = blk m c 2 t :=
  ((dats m 0 c).before_in_eq_fetched 2 rfl (fun _ => rfl) (fun _ _ _ => rfl)
    (fun t => by rw [after_2]; unfold Dat.blockOf blk; rw [A_eq]; try rfl) t d).trans
    (by unfold Dat.fetched Dat.blockOf blk; rw [A_eq]; try rfl)
theorem leaves_2 (c : Dev nD) (t : Fin cfg0.N) :
    (dats m 0 c).leavesExact 2 t = owns (c : Thread nD τ) (ms2 t) fullShare (blk m c 2 t) := by
  unfold Dat.leavesExact; rw [show cfg0.idle 2 (cfg0.grid.coords t) = false from rfl, after_2]

theorem after_3 (c : Dev nD) (t : Fin cfg0.N) : (dats m 0 c).after 3 t = blk m c 3 t := by dsimp only [dats]
theorem before_3 (c : Dev nD) (t : Fin cfg0.N) (d) : (dats m 0 c).before 3 t d = blk m c 3 t :=
  ((dats m 0 c).before_in_eq_fetched 3 rfl (fun _ => rfl) (fun _ _ _ => rfl)
    (fun t => by rw [after_3]; unfold Dat.blockOf blk; rw [A_eq]; try rfl) t d).trans
    (by unfold Dat.fetched Dat.blockOf blk; rw [A_eq]; try rfl)
theorem leaves_3 (c : Dev nD) (t : Fin cfg0.N) :
    (dats m 0 c).leavesExact 3 t = owns (c : Thread nD τ) (ms3 t) fullShare (blk m c 3 t) := by
  unfold Dat.leavesExact; rw [show cfg0.idle 3 (cfg0.grid.coords t) = false from rfl, after_3]

theorem after_4 (c : Dev nD) (t : Fin cfg0.N) : (dats m 0 c).after 4 t = blk m c 4 t := by dsimp only [dats]
theorem before_4 (c : Dev nD) (t : Fin cfg0.N) (d) : (dats m 0 c).before 4 t d = blk m c 4 t :=
  ((dats m 0 c).before_in_eq_fetched 4 rfl (fun _ => rfl) (fun _ _ _ => rfl)
    (fun t => by rw [after_4]; unfold Dat.blockOf blk; rw [A_eq]; try rfl) t d).trans
    (by unfold Dat.fetched Dat.blockOf blk; rw [A_eq]; try rfl)
theorem leaves_4 (c : Dev nD) (t : Fin cfg0.N) :
    (dats m 0 c).leavesExact 4 t = owns (c : Thread nD τ) (ms4 t) fullShare (blk m c 4 t) := by
  unfold Dat.leavesExact; rw [show cfg0.idle 4 (cfg0.grid.coords t) = false from rfl, after_4]

theorem after_5 (c : Dev nD) (t : Fin cfg0.N) : (dats m 0 c).after 5 t = k0_pay5 (accAt m c t.val t.isLt) (blk m c 4 t) := by dsimp only [dats]
theorem after_6 (c : Dev nD) (t : Fin cfg0.N) : (dats m 0 c).after 6 t = k0_pay4 (accAt m c t.val t.isLt) (blk m c 4 t) := by dsimp only [dats]

/-! ## The scratch between points -/

theorem Phi_castSucc (c : Dev nD) (t : Fin cfg0.N) : (dats m 0 c).Φ t.castSucc = Phi m c t.val (Nat.le_of_lt t.isLt) := by
  dsimp only [dats]; simp only [Fin.coe_castSucc]
theorem Phi_succ (c : Dev nD) (t : Fin cfg0.N) :
    (dats m 0 c).Φ t.succ = owns (c : Thread nD τ) scr fullShare (accAt m c t.val t.isLt) := rfl
theorem Phi_pos (c : Dev nD) (n : ℕ) (h : n ≤ cfg0.N) (hz : n ≠ 0) :
    Phi m c n h = owns (c : Thread nD τ) scr fullShare (accAt m c (n - 1) (by omega)) := by
  cases n with
  | zero => exact absurd rfl hz
  | succ n => rfl
theorem Phi_zero (c : Dev nD) (n : ℕ) (h : n ≤ cfg0.N) (hz : n = 0) :
    Phi m c n h = iprop(∃ d, owns (c : Thread nD τ) scr fullShare d) := by
  subst hz
  show (Pipeline.scopedRest (Ix := Unit) (Name := ℕ) (U := UR sig nD τ) (Lvl := ℕ) (Val := Elt F) spec0 c : sProp 𝕄) = _
  rw [scopedRest0_eq]; simp only [scr, owns_whole]; rfl
/-- Whatever the position, the invariant holds the scratch at some contents. -/
theorem Phi_some (c : Dev nD) (n : ℕ) (h : n ≤ cfg0.N) : Phi m c n h ⊢ iprop(∃ d, owns (c : Thread nD τ) scr fullShare d) := by
  by_cases hz : n = 0
  · rw [Phi_zero m c n h hz]
  · rw [Phi_pos m c n h hz]; iintro H; iexists _; iexact H

theorem accAt_first (c : Dev nD) (t : Fin cfg0.N) (h0 : t.val % 16 = 0) :
    accAt m c t.val t.isLt = k0_pay3 (blk m c 1 t) (blk m c 3 t) (k0_pay2 (blk m c 0 t) (blk m c 2 t) k0_pay1) := by
  obtain ⟨n, hn⟩ := t
  cases n with
  | zero => rfl
  | succ n => exact (show accAt m c (n + 1) hn = k0_pay3 _ _ (k0_pay2 _ _ (if (n + 1) % 16 = 0 then k0_pay1 else _)) from rfl).trans (by rw [if_pos h0])
theorem accAt_next (c : Dev nD) (t : Fin cfg0.N) (h0 : ¬t.val % 16 = 0) :
    accAt m c t.val t.isLt = k0_pay3 (blk m c 1 t) (blk m c 3 t) (k0_pay2 (blk m c 0 t) (blk m c 2 t)
      (accAt m c (t.val - 1) (Nat.lt_of_le_of_lt (Nat.sub_le _ _) t.isLt))) := by
  obtain ⟨n, hn⟩ := t
  cases n with
  | zero => exact absurd (Nat.zero_mod _) h0
  | succ n => exact (show accAt m c (n + 1) hn = k0_pay3 _ _ (k0_pay2 _ _ (if (n + 1) % 16 = 0 then k0_pay1 else _)) from rfl).trans (by rw [if_neg h0]; rfl)

/-! ## The obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, leaves_0, leaves_1, leaves_2, leaves_3, leaves_4]
  rw [show (dats m 0 c).owesAt () t.succ = (dats m 0 c).owesAt () t.castSucc from rfl, Phi_succ, Phi_castSucc]
  have hN : t.val < 32 := lt_of_lt_of_eq t.isLt (show cfg0.N = 32 from N_0)
  by_cases h0 : t.val % 16 = 0
  · have hc0 : isFirst (grid0.coords t) := (first_iff t).mpr h0
    have hc1 : ¬isLast (grid0.coords t) := fun h => by have := (last_iff t).mp h; omega
    rw [Dat.leavesExact_idle (dats m 0 c) 5 t (idle_5 t hc1) (noFlush_5 t hc1), Dat.leavesExact_idle (dats m 0 c) 6 t (idle_6 t hc1) (noFlush_6 t hc1)]
    rw [accAt_first m c t h0]
    iintro ⟨HS, Ho, ⟨%d0, H0⟩, ⟨%d1, H1⟩, ⟨%d2, H2⟩, ⟨%d3, H3⟩, ⟨%d4, H4⟩, H5, H6⟩
    ihave ⟨%dS, HS⟩ := (Phi_some m c t.val (Nat.le_of_lt t.isLt)) $$ HS
    iapply (run_first c (grid0.coords t) (ms0 t) (hs0 t) (ms1 t) (hs1 t) (ms2 t) (hs2 t) (ms3 t) (hs3 t) (ms4 t) (hs4 t) (ms5 t) (hs5 t) (ms6 t) (hs6 t) scr (Memref.isWhole_whole _) hc0 hc1 (blk m c 0 t) (blk m c 1 t) (blk m c 2 t) (blk m c 3 t) dS Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc0 : ¬isFirst (grid0.coords t) := fun h => h0 ((first_iff t).mp h)
    have hz : t.val ≠ 0 := fun h => h0 (by rw [h])
    rw [Phi_pos m c t.val (Nat.le_of_lt t.isLt) hz, accAt_next m c t h0]
    by_cases h1 : t.val % 16 = 15
    · have hc1 : isLast (grid0.coords t) := (last_iff t).mpr h1
      rw [show (dats m 0 c).leavesExact 5 t = owns (c : Thread nD τ) (ms5 t) fullShare ((dats m 0 c).after 5 t) from by
        unfold Dat.leavesExact; rw [live_5 t hc1]]
      rw [show (dats m 0 c).leavesExact 6 t = owns (c : Thread nD τ) (ms6 t) fullShare ((dats m 0 c).after 6 t) from by
        unfold Dat.leavesExact; rw [live_6 t hc1]]
      rw [after_5, after_6, accAt_next m c t h0]
      iintro ⟨HS, Ho, ⟨%d0, H0⟩, ⟨%d1, H1⟩, ⟨%d2, H2⟩, ⟨%d3, H3⟩, ⟨%d4, H4⟩, ⟨%d5, H5⟩, ⟨%d6, H6⟩⟩
      iapply (run_last c (grid0.coords t) (ms0 t) (hs0 t) (ms1 t) (hs1 t) (ms2 t) (hs2 t) (ms3 t) (hs3 t) (ms4 t) (hs4 t) (ms5 t) (hs5 t) (ms6 t) (hs6 t) scr (Memref.isWhole_whole _) hc0 hc1 (blk m c 0 t) (blk m c 1 t) (blk m c 2 t) (blk m c 3 t) (blk m c 4 t)
        ((dats m 0 c).before 5 t d5) ((dats m 0 c).before 6 t d6) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬isLast (grid0.coords t) := fun h => h1 ((last_iff t).mp h)
      rw [Dat.leavesExact_idle (dats m 0 c) 5 t (idle_5 t hc1) (noFlush_5 t hc1), Dat.leavesExact_idle (dats m 0 c) 6 t (idle_6 t hc1) (noFlush_6 t hc1)]
      iintro ⟨HS, Ho, ⟨%d0, H0⟩, ⟨%d1, H1⟩, ⟨%d2, H2⟩, ⟨%d3, H3⟩, ⟨%d4, H4⟩, H5, H6⟩
      iapply (run_mid c (grid0.coords t) (ms0 t) (hs0 t) (ms1 t) (hs1 t) (ms2 t) (hs2 t) (ms3 t) (hs3 t) (ms4 t) (hs4 t) (ms5 t) (hs5 t) (ms6 t) (hs6 t) scr (Memref.isWhole_whole _) hc0 hc1 (blk m c 0 t) (blk m c 1 t) (blk m c 2 t) (blk m c 3 t)
        (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Cell

end
-- ==== Proof.KI.Launch.lean ====
/-
  The launch of the region and the run of the whole program.

  Seven windows stand on six arrays: the weight matrix is read through two windows, one at its upper 2048 rows
  and one at its lower. At entry every array is held whole at the full share; the weight matrix's share is
  halved, one half to each of its two windows, and every other window takes its array whole. The kernel names
  no semaphore of its own and leaves no unscoped buffer outside the windows; its one scoped buffer that is no
  staging buffer is the scratch, which the invariant carries. The run ends with every window's array at what
  the write-backs made of it: an input array as it was, each result array overwritten block by block.
-/
import proofs.«154079_j8632884265137_2_alg».proof.Proof.KI.Oblig
set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays behind the windows, each once. -/
theorem arrRefs_eq : Finset.univ.image (Pipeline.arrRef spec0)
    = ([Pipeline.arrRef spec0 0, Pipeline.arrRef spec0 1, Pipeline.arrRef spec0 2, Pipeline.arrRef spec0 4, Pipeline.arrRef spec0 5, Pipeline.arrRef spec0 6] : List (Ref sig .tc)).toFinset := by decide
/-- The two weight windows stand on one array. -/
theorem arr_3_2 : Pipeline.arrRef spec0 3 = Pipeline.arrRef spec0 2 := by decide
/-- A points-to of the buffer behind an array, along an equation of arrays. -/
theorem pt_congr (c : Dev nD) {b b' : Ref sig .tc} (h : b = b') (q : PosShare TreeShare) :
    ((((c.tc : Thread nD τ).loc b) ↦{q} V m c b : sProp 𝕄)) = (((c.tc : Thread nD τ).loc b') ↦{q} V m c b') := by
  subst h; rfl

/-- The buffers behind the windows, one by one. -/
theorem arrBufs_eq (c : Dev nD) : (Pipeline.arrBufs spec0 c (V m c) : sProp 𝕄)
    = iprop((((c.tc : Thread nD τ).loc (Pipeline.arrRef spec0 0)) ↦{fullShare} V m c (Pipeline.arrRef spec0 0)) ∗ (((c.tc : Thread nD τ).loc (Pipeline.arrRef spec0 1)) ↦{fullShare} V m c (Pipeline.arrRef spec0 1)) ∗ (((c.tc : Thread nD τ).loc (Pipeline.arrRef spec0 2)) ↦{fullShare} V m c (Pipeline.arrRef spec0 2)) ∗ (((c.tc : Thread nD τ).loc (Pipeline.arrRef spec0 4)) ↦{fullShare} V m c (Pipeline.arrRef spec0 4)) ∗ (((c.tc : Thread nD τ).loc (Pipeline.arrRef spec0 5)) ↦{fullShare} V m c (Pipeline.arrRef spec0 5)) ∗ (((c.tc : Thread nD τ).loc (Pipeline.arrRef spec0 6)) ↦{fullShare} V m c (Pipeline.arrRef spec0 6))) :=
  bigSep_eq_bigSepL_of_eq [Pipeline.arrRef spec0 0, Pipeline.arrRef spec0 1, Pipeline.arrRef spec0 2, Pipeline.arrRef spec0 4, Pipeline.arrRef spec0 5, Pipeline.arrRef spec0 6] arrRefs_eq (by decide) _

/-- A window's array in the proof data's `arrays`, as a points-to of the buffer behind it. -/
theorem arr_pt (c : Dev nD) (w : Fin cfg0.W) :
    ((cfg0.win w).arr.view.loc (c.tc : Thread nD τ) ↦[(cfg0.win w).arr.view.set]{(dats m 0 c).share w} (dats m 0 c).arrAt w 0 : sProp 𝕄)
      = (((c.tc : Thread nD τ).loc (Pipeline.arrRef spec0 w)) ↦{(dats m 0 c).share w} V m c (Pipeline.arrRef spec0 w)) := by
  rw [(arr_whole0 w).set_eq_univ]; rfl

/-- The share each window holds its array at. -/
theorem share_0 (c : Dev nD) : (dats m 0 c).share 0 = fullShare := by
  unfold Dat.share; rw [if_neg (by decide)]; dsimp only [dats]
theorem share_1 (c : Dev nD) : (dats m 0 c).share 1 = fullShare := by
  unfold Dat.share; rw [if_neg (by decide)]; dsimp only [dats]
theorem share_2 (c : Dev nD) : (dats m 0 c).share 2 = fullShare.left := by
  unfold Dat.share; rw [if_neg (by decide)]; dsimp only [dats]
theorem share_3 (c : Dev nD) : (dats m 0 c).share 3 = fullShare.right := by
  unfold Dat.share; rw [if_neg (by decide)]; dsimp only [dats]
theorem share_4 (c : Dev nD) : (dats m 0 c).share 4 = fullShare := by
  unfold Dat.share; rw [if_neg (by decide)]; dsimp only [dats]
theorem share_5 (c : Dev nD) : (dats m 0 c).share 5 = fullShare := by
  unfold Dat.share; rw [if_pos (by decide)]
theorem share_6 (c : Dev nD) : (dats m 0 c).share 6 = fullShare := by
  unfold Dat.share; rw [if_pos (by decide)]

/-- The six buffers, whole at the full share, make the seven windows' arrays: the weight matrix's share halved
    between its two windows. -/
theorem hsplit (c : Dev nD) : (Pipeline.arrBufs spec0 c (V m c) : sProp 𝕄) ⊢ (dats m 0 c).arrays ((dats m 0 c).arrAt · 0) := by
  have e : (dats m 0 c).arrays ((dats m 0 c).arrAt · 0)
      = bigSep Finset.univ fun w : Fin 7 => ((((c.tc : Thread nD τ).loc (Pipeline.arrRef spec0 w)) ↦{(dats m 0 c).share w} V m c (Pipeline.arrRef spec0 w)) : sProp 𝕄) := by
    unfold Dat.arrays
    exact bigSep_congr fun w _ => arr_pt m c w
  rw [arrBufs_eq, e, bigSep_W0, share_0, share_1, share_2, share_3, share_4, share_5, share_6, pt_congr m c arr_3_2 fullShare.right]
  iintro ⟨H0, H1, H3, H2, H5, H6⟩
  ihave ⟨H3a, H3b⟩ := (pointsTo_share (PosShare.mem_left_op_right fullShare)).1 $$ H3
  isplitl [H0]; · iexact H0
  isplitl [H1]; · iexact H1
  isplitl [H3a]; · iexact H3a
  isplitl [H3b]; · iexact H3b
  isplitl [H2]; · iexact H2
  isplitl [H5]; · iexact H5
  iexact H6

/-- @main is the region and the return. -/
theorem hmain : Pipeline.HMain (Ix := Unit) (Name := ℕ) (U := UR sig nD τ) (Lvl := ℕ) cfgs 0 defs₀ Variants.none m (main (F := F)) (V m) :=
  Pipeline.hmain_region cfgs 0 defs₀ Variants.none m main (fun _ => rfl)

/-- After the last point the invariant gives the scratch back at some contents. -/
theorem hout (c : Dev nD) : (dats m 0 c).Φ (Fin.last cfg0.N)
    ⊢ iprop((BI.emp : sProp 𝕄) ∗ Pipeline.scopedRest (Ix := Unit) (Name := ℕ) (U := UR sig nD τ) (Lvl := ℕ) (Val := Elt F) spec0 c) := by
  have h0 : (Pipeline.scopedRest (Ix := Unit) (Name := ℕ) (U := UR sig nD τ) (Lvl := ℕ) (Val := Elt F) spec0 c : sProp 𝕄)
      = iprop(∃ d, owns (c : Thread nD τ) scr fullShare d) := Phi_zero m c 0 (Nat.zero_le _) rfl
  rw [h0]
  show Phi m c (Fin.last cfg0.N).val (Nat.le_of_lt_succ (Fin.last cfg0.N).isLt) ⊢ _
  iintro H
  isplitr
  · iempintro
  · iapply (Phi_some m c (Fin.last cfg0.N).val (Nat.le_of_lt_succ (Fin.last cfg0.N).isLt)); iexact H

/-- What the run ends with: every window's array at what the write-backs made of it. -/
def RunPost (r : PUnit × MemSt nD τ sig (Elt F)) : Prop :=
  ∀ c : Dev nD, ∀ w, r.2.mem ((cfg0.spec w).arr.view.loc (c.tc : Thread nD τ)) = (dats m 0 c).arrAt w cfg0.N

set_option backward.isDefEq.respectTransparency.types false in
/-- Every weakly fair execution of @main terminates, nothing faulting, in such a state. -/
theorem run_main : θ_run defs (onTc (τ := τ) (main (F := F))) (s₀ m ρ) (RunPost m) :=
  Pipeline.θ_run_region_noSem_shared cfgs (dats m) () cellOf_inj 0 winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m) (hsplit := hsplit m)
    (X := fun _ => BI.emp) (Y := fun _ => BI.emp) (Z := fun c => Pipeline.unscopedRest spec0 c (V m c))
    (hX := fun c => by
      iintro H
      isplitr
      · iempintro
      · iexact H)
    (hin := fun c => by
      show _ ⊢ (Pipeline.scopedRest (Ix := Unit) (Name := ℕ) (U := UR sig nD τ) (Lvl := ℕ) (Val := Elt F) spec0 c : sProp 𝕄)
      iintro ⟨-, H⟩
      iexact H)
    (hout := hout m)
    (QY := fun _ _ => True)
    (hY := fun c s' => by
      iintro ⟨-, -, HSI⟩
      imodintro
      isplitr
      · ipureintro; trivial
      · iexact HSI)
    (hQ := fun s h c w => (h c).1 w)

/-- The frame at any instance: the program runs to the end, nothing faults, and the four argument arrays end as
    they were (each is an input window's array, which no write-back touches). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c 0).trans ((dats m 0 c).arrAt_in 0 rfl _), (h c 1).trans ((dats m 0 c).arrAt_in 1 rfl _),
     (h c 4).trans ((dats m 0 c).arrAt_in 4 rfl _), (h c 2).trans ((dats m 0 c).arrAt_in 2 rfl _)⟩) (run_main m ρ)

end Cert.KernelIdeal.Cell

end
-- ==== Proof.LstmSpec.lean ====
/-
  The LSTM cell as one function of its four argument arrays, over the extended reals.

  The pre-activation of row `r` and column `n` is the product of the row `[x r, h r]` (the two inputs side by
  side, 4096 entries) with column `n` of the weight matrix. It is written here as a sum over the sixteen
  blocks of 128 consecutive positions of the hidden axis: block `k` contributes the products of `x`'s entries
  `128 k … 128 k + 127` with the weight rows of the same numbers, and of `h`'s entries of those positions with
  the weight rows `2048 + 128 k …`. The four gates read the pre-activation at the columns `u`, `2048 + u`,
  `4096 + u` and `6144 + u`: input, forget, candidate and output. The new cell state is
  `σ(forget) · c + σ(input) · tanh(candidate)` and the new hidden state `σ(output) · tanh(new cell state)`,
  with `σ` the logistic function and every operation the exact one on the extended reals.
-/
import Idealize.ShloMosaic.PureOps.Ideal

noncomputable section

namespace Cert.Lstm

open Idealize.ShloMosaic

/-- Position `j` of block `k` on the hidden axis (2048 positions, sixteen blocks of 128). -/
def hid (k : Fin 16) (j : Fin 128) : Fin 2048 := ⟨128 * k.val + j.val, by have := k.isLt; have := j.isLt; omega⟩
/-- The weight row that meets `x`'s entry at that position: the same number. -/
def rowX (k : Fin 16) (j : Fin 128) : Fin 4096 := ⟨128 * k.val + j.val, by have := k.isLt; have := j.isLt; omega⟩
/-- The weight row that meets `h`'s entry at that position: 2048 further down. -/
def rowH (k : Fin 16) (j : Fin 128) : Fin 4096 := ⟨2048 + (128 * k.val + j.val), by have := k.isLt; have := j.isLt; omega⟩

/-- The columns of the four gates for hidden unit `u`. -/
def colI (u : Fin 2048) : Fin 8192 := ⟨u.val, by have := u.isLt; omega⟩
def colF (u : Fin 2048) : Fin 8192 := ⟨2048 + u.val, by have := u.isLt; omega⟩
def colG (u : Fin 2048) : Fin 8192 := ⟨4096 + u.val, by have := u.isLt; omega⟩
def colO (u : Fin 2048) : Fin 8192 := ⟨6144 + u.val, by have := u.isLt; omega⟩

variable (x h c : Fin 1024 → Fin 2048 → EReal) (w : Fin 4096 → Fin 8192 → EReal)

/-- Block `k`'s share of the pre-activation from `x`. -/
def partX (k : Fin 16) (r : Fin 1024) (n : Fin 8192) : EReal := ∑ j : Fin 128, x r (hid k j) * w (rowX k j) n
/-- Block `k`'s share of the pre-activation from `h`. -/
def partH (k : Fin 16) (r : Fin 1024) (n : Fin 8192) : EReal := ∑ j : Fin 128, h r (hid k j) * w (rowH k j) n

/-- The pre-activation: all sixteen blocks' shares. -/
def pre (r : Fin 1024) (n : Fin 8192) : EReal := ∑ k : Fin 16, (partX x w k r n + partH h w k r n)

/-- The new cell state. -/
def cNew (r : Fin 1024) (u : Fin 2048) : EReal :=
  Ideal.logistic (pre x h w r (colF u)) * c r u + Ideal.logistic (pre x h w r (colI u)) * Ideal.tanh (pre x h w r (colG u))

/-- The new hidden state. -/
def hNew (r : Fin 1024) (u : Fin 2048) : EReal :=
  Ideal.logistic (pre x h w r (colO u)) * Ideal.tanh (cNew x h c w r u)

end Cert.Lstm

end
-- ==== Proof.KI.Payload.lean ====
/-
  The kernel body's five stored values, read index by index over the extended reals.
-/
import proofs.«154079_j8632884265137_2_alg».proof.Proof.Gen.KernelIdeal.Skeleton
import proofs.«154079_j8632884265137_2_alg».proof.Proof.LstmSpec
import Idealize.ShloMosaic.Lib.ValueIdx
import Idealize.ShloMosaic.Lib.Pipeline.Value
import Idealize.ShloMosaic.PureOps.Ideal.Laws

noncomputable section

namespace Cert.KernelIdeal.CellValue

open Idealize.ShloMosaic Idealize.ShloMosaic.ValueIdx Cert.KernelIdeal.Gen
open scoped BigOperators

/-! ## The cleared accumulator -/

/-- The accumulator is cleared to the word of zero, which denotes `0`; a reshape to the same shape moves nothing. -/
theorem pay1_apply (y : S512x8192.Idx) : k0_pay1 (F := Ideal) y = 0 := by
  unfold k0_pay1
  exact (congrFun (shapeCast_self _ _) y).trans Ideal.ofBits_zero_f32

/-! ## One block product added to the accumulator -/

theorem lhs_row (i : S512x8192.Idx) (q : dot_S512x128_S128x8192_S512x8192_1_0_0_1_n_n.contr.Idx) :
    (dot_S512x128_S128x8192_S512x8192_1_0_0_1_n_n.lhsIdx i q 0).val = (i 0).val := by
  unfold DotDims.lhsIdx
  rw [dif_neg (show ¬(0 : Fin S512x128.rank) ∈ dot_S512x128_S128x8192_S512x8192_1_0_0_1_n_n.lhsBatch by decide),
    dif_pos (show (0 : Fin S512x128.rank) ∈ dot_S512x128_S128x8192_S512x8192_1_0_0_1_n_n.lhsNonContracting by decide)]
  rfl

theorem rhs_col (i : S512x8192.Idx) (q : dot_S512x128_S128x8192_S512x8192_1_0_0_1_n_n.contr.Idx) :
    (dot_S512x128_S128x8192_S512x8192_1_0_0_1_n_n.rhsIdx i q 1).val = (i 1).val := by
  unfold DotDims.rhsIdx
  rw [dif_neg (show ¬(1 : Fin S128x8192.rank) ∈ dot_S512x128_S128x8192_S512x8192_1_0_0_1_n_n.rhsBatch by decide),
    dif_pos (show (1 : Fin S128x8192.rank) ∈ dot_S512x128_S128x8192_S512x8192_1_0_0_1_n_n.rhsNonContracting by decide)]
  rfl

/-- A product of a 512 × 128 block with a 128 × 8192 block into a zero accumulator, at row `p` and column `n`:
    the sum over the 128 contracted positions of the products of the entries. -/
theorem matmul_zero_apply {φ₁ φ₂ : FTy} (a : FVec Ideal S512x128 φ₁) (b : FVec Ideal S128x8192 φ₂) (p : Fin 512) (n : Fin 8192) :
    matmul (F := Ideal) dot_S512x128_S128x8192_S512x8192_1_0_0_1_n_n none a b (constant S512x8192 .f32 0x00000000#32) (ix2 p n)
      = ∑ j : Fin 128, a (ix2 p j) * b (ix2 j n) := by
  refine (Ideal.matmul_constant_zero_apply dot_S512x128_S128x8192_S512x8192_1_0_0_1_n_n none a b (ix2 p n)).trans ?_
  rw [← Equiv.sum_comp (contrEquiv1 dot_S512x128_S128x8192_S512x8192_1_0_0_1_n_n 128 rfl rfl).symm]
  refine Finset.sum_congr rfl fun k _ => ?_
  have hk := contrEquiv1_symm_val dot_S512x128_S128x8192_S512x8192_1_0_0_1_n_n 128 rfl rfl k
  have el : dot_S512x128_S128x8192_S512x8192_1_0_0_1_n_n.lhsIdx (ix2 p n) ((contrEquiv1 dot_S512x128_S128x8192_S512x8192_1_0_0_1_n_n 128 rfl rfl).symm k) = ix2 p k :=
    funext fun c => Fin.ext (by
      match c with
      | ⟨0, _⟩ => exact lhs_row _ _
      | ⟨1, _⟩ => exact (dot_S512x128_S128x8192_S512x8192_1_0_0_1_n_n.lhsIdx_val_of_single rfl _ _).trans hk)
  have er : dot_S512x128_S128x8192_S512x8192_1_0_0_1_n_n.rhsIdx (ix2 p n) ((contrEquiv1 dot_S512x128_S128x8192_S512x8192_1_0_0_1_n_n 128 rfl rfl).symm k) = ix2 k n :=
    funext fun c => Fin.ext (by
      match c with
      | ⟨0, _⟩ => exact (dot_S512x128_S128x8192_S512x8192_1_0_0_1_n_n.rhsIdx_val_of_single rfl _ _).trans hk
      | ⟨1, _⟩ => exact rhs_col _ _)
  rw [el, er]

/-- The first accumulation: over the extended reals the narrowing of the two operands changes nothing, so the stored
    value is the accumulator plus the exact block product. -/
theorem pay2_apply (x : Vec Ideal S512x128 .f32) (w : Vec Ideal S128x8192 .f32) (acc : Vec Ideal S512x8192 .f32)
    (p : Fin 512) (n : Fin 8192) :
    k0_pay2 x w acc (ix2 p n) = acc (ix2 p n) + ∑ j : Fin 128, x (ix2 p j) * w (ix2 j n) := by
  unfold k0_pay2
  refine (congrFun (shapeCast_self _ _) (ix2 p n)).trans ?_
  exact congrArg (acc (ix2 p n) + ·) (matmul_zero_apply _ _ p n)

/-- The second accumulation: the same. -/
theorem pay3_apply (x : Vec Ideal S512x128 .f32) (w : Vec Ideal S128x8192 .f32) (acc : Vec Ideal S512x8192 .f32)
    (p : Fin 512) (n : Fin 8192) :
    k0_pay3 x w acc (ix2 p n) = acc (ix2 p n) + ∑ j : Fin 128, x (ix2 p j) * w (ix2 j n) := by
  unfold k0_pay3
  refine (congrFun (shapeCast_self _ _) (ix2 p n)).trans ?_
  exact congrArg (acc (ix2 p n) + ·) (matmul_zero_apply _ _ p n)

/-! ## The four column ranges of the accumulator

The slice at column offset `o` reads column `o + u`: the input gate's columns start at 0, the forget gate's at
2048, the candidate's at 4096 and the output gate's at 6144. -/

theorem slice_i (z : Vec Ideal S512x8192 .f32) (p : Fin 512) (u : Fin 2048) :
    extractStridedSlice S512x2048 ![0, 0] z slices_S512x8192_o0_0_S512x2048 (ix2 p u) = z (ix2 p (Cert.Lstm.colI u)) :=
  extractStridedSlice_apply ![0, 0] z slices_S512x8192_o0_0_S512x2048 (ix2 p u) (ix2 p (Cert.Lstm.colI u))
    (fun a => match a with
      | ⟨0, _⟩ => by show p.val = 0 + p.val; omega
      | ⟨1, _⟩ => by show u.val = 0 + u.val; omega)

theorem slice_f (z : Vec Ideal S512x8192 .f32) (p : Fin 512) (u : Fin 2048) :
    extractStridedSlice S512x2048 ![0, 2048] z slices_S512x8192_o0_2048_S512x2048 (ix2 p u) = z (ix2 p (Cert.Lstm.colF u)) :=
  extractStridedSlice_apply ![0, 2048] z slices_S512x8192_o0_2048_S512x2048 (ix2 p u) (ix2 p (Cert.Lstm.colF u))
    (fun a => match a with
      | ⟨0, _⟩ => by show p.val = 0 + p.val; omega
      | ⟨1, _⟩ => by show 2048 + u.val = 2048 + u.val; omega)

theorem slice_g (z : Vec Ideal S512x8192 .f32) (p : Fin 512) (u : Fin 2048) :
    extractStridedSlice S512x2048 ![0, 4096] z slices_S512x8192_o0_4096_S512x2048 (ix2 p u) = z (ix2 p (Cert.Lstm.colG u)) :=
  extractStridedSlice_apply ![0, 4096] z slices_S512x8192_o0_4096_S512x2048 (ix2 p u) (ix2 p (Cert.Lstm.colG u))
    (fun a => match a with
      | ⟨0, _⟩ => by show p.val = 0 + p.val; omega
      | ⟨1, _⟩ => by show 4096 + u.val = 4096 + u.val; omega)

theorem slice_o (z : Vec Ideal S512x8192 .f32) (p : Fin 512) (u : Fin 2048) :
    extractStridedSlice S512x2048 ![0, 6144] z slices_S512x8192_o0_6144_S512x2048 (ix2 p u) = z (ix2 p (Cert.Lstm.colO u)) :=
  extractStridedSlice_apply ![0, 6144] z slices_S512x8192_o0_6144_S512x2048 (ix2 p u) (ix2 p (Cert.Lstm.colO u))
    (fun a => match a with
      | ⟨0, _⟩ => by show p.val = 0 + p.val; omega
      | ⟨1, _⟩ => by show 6144 + u.val = 6144 + u.val; omega)

/-! ## The new cell state and the new hidden state of a block -/

/-- The new cell state: `σ(forget) · c + σ(input) · tanh(candidate)`, every operation pointwise. -/
theorem pay4_apply (z : Vec Ideal S512x8192 .f32) (cb : Vec Ideal S512x2048 .f32) (p : Fin 512) (u : Fin 2048) :
    k0_pay4 z cb (ix2 p u)
      = Ideal.logistic (z (ix2 p (Cert.Lstm.colF u))) * cb (ix2 p u)
        + Ideal.logistic (z (ix2 p (Cert.Lstm.colI u))) * Ideal.tanh (z (ix2 p (Cert.Lstm.colG u))) := by
  have e : k0_pay4 z cb (ix2 p u)
      = Ideal.logistic (extractStridedSlice S512x2048 ![0, 2048] z slices_S512x8192_o0_2048_S512x2048 (ix2 p u)) * cb (ix2 p u)
        + Ideal.logistic (extractStridedSlice S512x2048 ![0, 0] z slices_S512x8192_o0_0_S512x2048 (ix2 p u))
          * Ideal.tanh (extractStridedSlice S512x2048 ![0, 4096] z slices_S512x8192_o0_4096_S512x2048 (ix2 p u)) := rfl
  rw [e, slice_f, slice_i, slice_g]

/-- The new hidden state: `σ(output) · tanh(new cell state)`. -/
theorem pay5_apply (z : Vec Ideal S512x8192 .f32) (cb : Vec Ideal S512x2048 .f32) (p : Fin 512) (u : Fin 2048) :
    k0_pay5 z cb (ix2 p u)
      = Ideal.logistic (z (ix2 p (Cert.Lstm.colO u))) * Ideal.tanh (k0_pay4 z cb (ix2 p u)) := by
  have e : k0_pay5 z cb (ix2 p u)
      = Ideal.logistic (extractStridedSlice S512x2048 ![0, 6144] z slices_S512x8192_o0_6144_S512x2048 (ix2 p u))
        * Ideal.tanh (k0_pay4 z cb (ix2 p u)) := rfl
  rw [e, slice_o]

end Cert.KernelIdeal.CellValue

end
-- ==== Proof.KI.Value.lean ====
/-
  What the idealized kernel leaves in its two result arrays, as the LSTM cell of its argument arrays.

  Point `t` of the grid works on rows `512 (t / 16) … 512 (t / 16) + 511` and on block `t % 16` of the hidden
  axis. Its `x` and `h` blocks are those rows at the block's 128 positions; its two weight blocks are the 128
  weight rows of the block's numbers and the 128 rows 2048 further down; its cell-state block is those rows
  whole. One accumulate step adds to the scratch, entry by entry, the block's share of the pre-activation. By
  induction on the point the scratch after point `t` holds the shares of blocks `0 … t % 16`; after block 15 it
  holds the whole pre-activation, and the two blocks written back there are the new hidden state and the new
  cell state of those rows. The two write-backs (points 15 and 31) cover the 1024 rows.
-/
import proofs.«154079_j8632884265137_2_alg».proof.Proof.KI.Launch
import proofs.«154079_j8632884265137_2_alg».proof.Proof.KI.Payload
import proofs.«154079_j8632884265137_2_alg».proof.Proof.LstmSpec
import Idealize.ShloMosaic.Lib.Pipeline.Value
import Idealize.ShloMosaic.Lib.ValueIdx

set_option maxRecDepth 16384

noncomputable section

namespace Cert.KernelIdeal.CellValue

open Cert.KernelIdeal Cert.KernelIdeal.Gen Cert.KernelIdeal.Cell Cert.Lstm
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## The argument arrays, by row and column -/

def aX (c : Dev nD) : Fin 1024 → Fin 2048 → EReal := fun r j => V m c main_arg0 (ix2 r j)
def aH (c : Dev nD) : Fin 1024 → Fin 2048 → EReal := fun r j => V m c main_arg1 (ix2 r j)
def aC (c : Dev nD) : Fin 1024 → Fin 2048 → EReal := fun r j => V m c main_arg2 (ix2 r j)
def aW (c : Dev nD) : Fin 4096 → Fin 8192 → EReal := fun q n => V m c main_arg3 (ix2 q n)

/-! ## Where each window's block sits -/

/-- The windows' block indices at each grid point: the row half is `t / 16`, the hidden block `t % 16`; the lower
    weight window is sixteen blocks further down. -/
theorem idx_facts : ∀ t : Fin cfg0.N,
    win0_0.index t (0 : Fin 2) = t.val / 16 ∧ win0_0.index t (1 : Fin 2) = t.val % 16
    ∧ win0_1.index t (0 : Fin 2) = t.val / 16 ∧ win0_1.index t (1 : Fin 2) = t.val % 16
    ∧ win0_2.index t (0 : Fin 2) = t.val % 16 ∧ win0_2.index t (1 : Fin 2) = 0
    ∧ win0_3.index t (0 : Fin 2) = t.val % 16 + 16 ∧ win0_3.index t (1 : Fin 2) = 0
    ∧ win0_4.index t (0 : Fin 2) = t.val / 16 ∧ win0_4.index t (1 : Fin 2) = 0
    ∧ win0_5.index t (0 : Fin 2) = t.val / 16 ∧ win0_5.index t (1 : Fin 2) = 0
    ∧ win0_6.index t (0 : Fin 2) = t.val / 16 ∧ win0_6.index t (1 : Fin 2) = 0 :=
  (by decide +kernel : ∀ t : Fin grid0.N, _)

theorem pt_lt (t : Fin cfg0.N) : t.val < 32 := lt_of_lt_of_eq t.isLt N_0

/-- The array row of row `p` of point `t`'s row half. -/
def rowOf (t : Fin cfg0.N) (p : Fin 512) : Fin 1024 := ⟨512 * (t.val / 16) + p.val, by have := pt_lt t; have := p.isLt; omega⟩
/-- The hidden block point `t` works on. -/
def blockAt (t : Fin cfg0.N) : Fin 16 := ⟨t.val % 16, Nat.mod_lt _ (by decide)⟩

theorem blk0_apply (c : Dev nD) (t : Fin cfg0.N) (p : Fin 512) (j : Fin 128) :
    blk m c 0 t (ix2 p j) = aX m c (rowOf t p) (hid (blockAt t) j) := by
  obtain ⟨e0, e1, -⟩ := idx_facts t
  have h : ((cfg0.win 0).blk t).view.emb (ix2 p j) = ix2 (rowOf t p) (hid (blockAt t) j) := by
    funext a; apply Fin.ext
    match a with
    | ⟨0, _⟩ => show win0_0.index t (0 : Fin 2) * 512 + 1 * p.val = 512 * (t.val / 16) + p.val; omega
    | ⟨1, _⟩ => show win0_0.index t (1 : Fin 2) * 128 + 1 * j.val = 128 * (t.val % 16) + j.val; omega
  show V m c main_arg0 (((cfg0.win 0).blk t).view.emb (ix2 p j)) = _
  rw [h]; rfl

theorem blk1_apply (c : Dev nD) (t : Fin cfg0.N) (p : Fin 512) (j : Fin 128) :
    blk m c 1 t (ix2 p j) = aH m c (rowOf t p) (hid (blockAt t) j) := by
  obtain ⟨-, -, e0, e1, -⟩ := idx_facts t
  have h : ((cfg0.win 1).blk t).view.emb (ix2 p j) = ix2 (rowOf t p) (hid (blockAt t) j) := by
    funext a; apply Fin.ext
    match a with
    | ⟨0, _⟩ => show win0_1.index t (0 : Fin 2) * 512 + 1 * p.val = 512 * (t.val / 16) + p.val; omega
    | ⟨1, _⟩ => show win0_1.index t (1 : Fin 2) * 128 + 1 * j.val = 128 * (t.val % 16) + j.val; omega
  show V m c main_arg1 (((cfg0.win 1).blk t).view.emb (ix2 p j)) = _
  rw [h]; rfl

theorem blk2_apply (c : Dev nD) (t : Fin cfg0.N) (j : Fin 128) (n : Fin 8192) :
    blk m c 2 t (ix2 j n) = aW m c (rowX (blockAt t) j) n := by
  obtain ⟨-, -, -, -, e0, e1, -⟩ := idx_facts t
  have h : ((cfg0.win 2).blk t).view.emb (ix2 j n) = ix2 (rowX (blockAt t) j) n := by
    funext a; apply Fin.ext
    match a with
    | ⟨0, _⟩ => show win0_2.index t (0 : Fin 2) * 128 + 1 * j.val = 128 * (t.val % 16) + j.val; omega
    | ⟨1, _⟩ => show win0_2.index t (1 : Fin 2) * 8192 + 1 * n.val = n.val; omega
  show V m c main_arg3 (((cfg0.win 2).blk t).view.emb (ix2 j n)) = _
  rw [h]; rfl

theorem blk3_apply (c : Dev nD) (t : Fin cfg0.N) (j : Fin 128) (n : Fin 8192) :
    blk m c 3 t (ix2 j n) = aW m c (rowH (blockAt t) j) n := by
  obtain ⟨-, -, -, -, -, -, e0, e1, -⟩ := idx_facts t
  have h : ((cfg0.win 3).blk t).view.emb (ix2 j n) = ix2 (rowH (blockAt t) j) n := by
    funext a; apply Fin.ext
    match a with
    | ⟨0, _⟩ => show win0_3.index t (0 : Fin 2) * 128 + 1 * j.val = 2048 + (128 * (t.val % 16) + j.val); omega
    | ⟨1, _⟩ => show win0_3.index t (1 : Fin 2) * 8192 + 1 * n.val = n.val; omega
  show V m c main_arg3 (((cfg0.win 3).blk t).view.emb (ix2 j n)) = _
  rw [h]; rfl

theorem blk4_apply (c : Dev nD) (t : Fin cfg0.N) (p : Fin 512) (u : Fin 2048) :
    blk m c 4 t (ix2 p u) = aC m c (rowOf t p) u := by
  obtain ⟨-, -, -, -, -, -, -, -, e0, e1, -⟩ := idx_facts t
  have h : ((cfg0.win 4).blk t).view.emb (ix2 p u) = ix2 (rowOf t p) u := by
    funext a; apply Fin.ext
    match a with
    | ⟨0, _⟩ => show win0_4.index t (0 : Fin 2) * 512 + 1 * p.val = 512 * (t.val / 16) + p.val; omega
    | ⟨1, _⟩ => show win0_4.index t (1 : Fin 2) * 2048 + 1 * u.val = u.val; omega
  show V m c main_arg2 (((cfg0.win 4).blk t).view.emb (ix2 p u)) = _
  rw [h]; rfl

/-! ## The scratch, entry by entry -/

/-- Block `k`'s share of the pre-activation of row `r`, column `n` (nothing past block 15). -/
def share (c : Dev nD) (r : Fin 1024) (n : Fin 8192) (k : ℕ) : EReal :=
  if hk : k < 16 then partX (aX m c) (aW m c) ⟨k, hk⟩ r n + partH (aH m c) (aW m c) ⟨k, hk⟩ r n else 0

/-- One accumulate step over any blocks, their entries along the contracted axis named. -/
theorem step_vars (x h : Vec Ideal S512x128 .f32) (wx wh : Vec Ideal S128x8192 .f32) (acc : Vec Ideal S512x8192 .f32)
    (p : Fin 512) (n : Fin 8192) (fx fh gx gh : Fin 128 → EReal)
    (hx : ∀ j, x (ix2 p j) = fx j) (hh : ∀ j, h (ix2 p j) = fh j) (hwx : ∀ j, wx (ix2 j n) = gx j) (hwh : ∀ j, wh (ix2 j n) = gh j) :
    k0_pay3 h wh (k0_pay2 x wx acc) (ix2 p n) = acc (ix2 p n) + ((∑ j : Fin 128, fx j * gx j) + ∑ j : Fin 128, fh j * gh j) := by
  rw [pay3_apply, pay2_apply, add_assoc]
  have e1 : (∑ j : Fin 128, x (ix2 p j) * wx (ix2 j n)) = ∑ j : Fin 128, fx j * gx j :=
    Finset.sum_congr rfl fun j _ => by rw [hx, hwx]
  have e2 : (∑ j : Fin 128, h (ix2 p j) * wh (ix2 j n)) = ∑ j : Fin 128, fh j * gh j :=
    Finset.sum_congr rfl fun j _ => by rw [hh, hwh]
  rw [e1, e2]

/-- One accumulate step adds the point's block's share. -/
theorem step_apply (c : Dev nD) (t : Fin cfg0.N) (acc : Vec Ideal S512x8192 .f32) (p : Fin 512) (n : Fin 8192) :
    k0_pay3 (blk m c 1 t) (blk m c 3 t) (k0_pay2 (blk m c 0 t) (blk m c 2 t) acc) (ix2 p n)
      = acc (ix2 p n) + share m c (rowOf t p) n (t.val % 16) := by
  refine (step_vars (blk m c 0 t) (blk m c 1 t) (blk m c 2 t) (blk m c 3 t) acc p n
    (fun j => aX m c (rowOf t p) (hid (blockAt t) j)) (fun j => aH m c (rowOf t p) (hid (blockAt t) j))
    (fun j => aW m c (rowX (blockAt t) j) n) (fun j => aW m c (rowH (blockAt t) j) n)
    (fun j => blk0_apply m c t p j) (fun j => blk1_apply m c t p j) (fun j => blk2_apply m c t j n) (fun j => blk3_apply m c t j n)).trans ?_
  unfold share
  rw [dif_pos (Nat.mod_lt _ (by decide))]
  rfl

/-- After point `n` the scratch holds the shares of the blocks `0 … n % 16` of its row half. -/
theorem accAt_apply (c : Dev nD) : ∀ (n : ℕ) (hn : n < cfg0.N) (p : Fin 512) (q : Fin 8192),
    accAt m c n hn (ix2 p q) = ∑ k ∈ Finset.range (n % 16 + 1), share m c (rowOf ⟨n, hn⟩ p) q k := by
  intro n
  induction n with
  | zero =>
    intro hn p q
    refine (congrFun (accAt_first m c ⟨0, hn⟩ rfl) (ix2 p q)).trans ?_
    rw [step_apply m c ⟨0, hn⟩ (k0_pay1 (F := Ideal)) p q, pay1_apply, zero_add]
    exact (Finset.sum_range_one _).symm
  | succ n ih =>
    intro hn p q
    by_cases h0 : (n + 1) % 16 = 0
    · refine (congrFun (accAt_first m c ⟨n + 1, hn⟩ h0) (ix2 p q)).trans ?_
      rw [step_apply m c ⟨n + 1, hn⟩ (k0_pay1 (F := Ideal)) p q, pay1_apply, zero_add]
      show share m c (rowOf ⟨n + 1, hn⟩ p) q ((n + 1) % 16) = _
      rw [h0]
      exact (Finset.sum_range_one _).symm
    · refine (congrFun (accAt_next m c ⟨n + 1, hn⟩ h0) (ix2 p q)).trans ?_
      rw [step_apply m c ⟨n + 1, hn⟩ _ p q]
      have e1 : (n + 1) % 16 = n % 16 + 1 := by omega
      have e2 : rowOf ⟨n, Nat.lt_of_succ_lt hn⟩ p = rowOf ⟨n + 1, hn⟩ p := Fin.ext (by
        show 512 * (n / 16) + p.val = 512 * ((n + 1) / 16) + p.val
        omega)
      show accAt m c n (Nat.lt_of_succ_lt hn) (ix2 p q) + share m c (rowOf ⟨n + 1, hn⟩ p) q ((n + 1) % 16) = _
      rw [ih (Nat.lt_of_succ_lt hn) p q, e2, e1, Finset.sum_range_succ _ (n % 16 + 1)]

/-- All sixteen shares are the pre-activation. -/
theorem sum_shares (c : Dev nD) (r : Fin 1024) (n : Fin 8192) :
    ∑ k ∈ Finset.range 16, share m c r n k = pre (aX m c) (aH m c) (aW m c) r n := by
  rw [Finset.sum_range]; unfold pre
  exact Finset.sum_congr rfl fun k _ => by unfold share; rw [dif_pos k.isLt]

/-- After a last block the scratch holds the pre-activation of its row half. -/
theorem acc_last (c : Dev nD) (t : Fin cfg0.N) (h15 : t.val % 16 = 15) (p : Fin 512) (q : Fin 8192) :
    accAt m c t.val t.isLt (ix2 p q) = pre (aX m c) (aH m c) (aW m c) (rowOf t p) q := by
  rw [accAt_apply m c t.val t.isLt p q, h15]
  exact sum_shares m c _ q

/-! ## The two result arrays -/

/-- The new hidden state and the new cell state of the argument arrays, as whole arrays. -/
def hOut (c : Dev nD) : S1024x2048.Idx → EReal := fun i => hNew (aX m c) (aH m c) (aC m c) (aW m c) (i 0) (i 1)
def cOut (c : Dev nD) : S1024x2048.Idx → EReal := fun i => cNew (aX m c) (aH m c) (aC m c) (aW m c) (i 0) (i 1)

/-- The cell-state payload of a last block, at an entry. -/
theorem cell_last (c : Dev nD) (t : Fin cfg0.N) (h15 : t.val % 16 = 15) (p : Fin 512) (u : Fin 2048) :
    k0_pay4 (accAt m c t.val t.isLt) (blk m c 4 t) (ix2 p u) = cNew (aX m c) (aH m c) (aC m c) (aW m c) (rowOf t p) u := by
  refine (pay4_apply (accAt m c t.val t.isLt) (blk m c 4 t) p u).trans ?_
  rw [acc_last m c t h15, acc_last m c t h15, acc_last m c t h15, blk4_apply]
  rfl

/-- The hidden-state payload of a last block, at an entry. -/
theorem hidden_last (c : Dev nD) (t : Fin cfg0.N) (h15 : t.val % 16 = 15) (p : Fin 512) (u : Fin 2048) :
    k0_pay5 (accAt m c t.val t.isLt) (blk m c 4 t) (ix2 p u) = hNew (aX m c) (aH m c) (aC m c) (aW m c) (rowOf t p) u := by
  refine (pay5_apply (accAt m c t.val t.isLt) (blk m c 4 t) p u).trans ?_
  rw [acc_last m c t h15, cell_last m c t h15]
  rfl

/-! ## From the two write-backs to the arrays -/

theorem emb5 (t : Fin cfg0.N) (p : Fin 512) (u : Fin 2048) :
    ((cfg0.win 5).blk t).view.emb (ix2 p u) = ix2 (rowOf t p) u := by
  obtain ⟨-, -, -, -, -, -, -, -, -, -, e0, e1, -⟩ := idx_facts t
  funext a; apply Fin.ext
  match a with
  | ⟨0, _⟩ => show win0_5.index t (0 : Fin 2) * 512 + 1 * p.val = 512 * (t.val / 16) + p.val; omega
  | ⟨1, _⟩ => show win0_5.index t (1 : Fin 2) * 2048 + 1 * u.val = u.val; omega

/-- What a last block writes back into this result array is the block of the whole-array function there. -/
theorem flushed5_eq (c : Dev nD) (t : Fin cfg0.N) (hf : (cfg0.win 5).flush t = true) :
    (dats m 0 c).flushed 5 t = ((cfg0.win 5).blk t).view.read (Elt Ideal) (hOut m c) := by
  have h15 : t.val % 16 = 15 := (flush0_5 t).mp hf
  show (cfg0.win 5).cut (grid0.coords t) ((dats m 0 c).after 5 t) = _
  rw [after_5]
  funext y
  obtain ⟨p, u, rfl⟩ : ∃ (p : Fin 512) (u : Fin 2048), y = ix2 p u := ⟨y 0, y 1, eq_ix2 y⟩
  show k0_pay5 (accAt m c t.val t.isLt) (blk m c 4 t) (ix2 p u) = hOut m c (((cfg0.win 5).blk t).view.emb (ix2 p u))
  rw [emb5, hidden_last m c t h15]
  rfl

/-- An index of the array is in point `t`'s block iff each coordinate is in the block's range. -/
theorem mem_blk5 (t : Fin cfg0.N) (i : S1024x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v0_0).slice (win0_5.rect t)).set ↔ _
  rw [View.set_slice_whole, Rect.mem_set_unit]
  exact Iff.rfl

/-- Every row lies in the block written back at the last point of its row half. -/
theorem cover5 (i : S1024x2048.Idx) : ∃ t : Fin cfg0.N, (cfg0.win 5).flush t = true ∧ i ∈ ((cfg0.win 5).blk t).view.set := by
  have hi0 : (i 0).val < 1024 := (i 0).isLt
  have hi1 : (i 1).val < 2048 := (i 1).isLt
  have hN : cfg0.N = 32 := N_0
  let t : Fin cfg0.N := ⟨16 * ((i 0).val / 512) + 15, by omega⟩
  have ht : t.val = 16 * ((i 0).val / 512) + 15 := rfl
  obtain ⟨-, -, -, -, -, -, -, -, -, -, e0, e1, -⟩ := idx_facts t
  refine ⟨t, (flush0_5 t).mpr (by omega), ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 2048 ≤ (i 1).val ∧ (i 1).val < win0_5.index t (1 : Fin 2) * 2048 + 2048; omega

/-- The array after the run. -/
theorem final5 (c : Dev nD) : (dats m 0 c).arrAt 5 cfg0.N = hOut m c :=
  (dats m 0 c).arrAt_eq_of_cover 5 (hOut m c) (fun t hf => flushed5_eq m c t hf) cover5

theorem emb6 (t : Fin cfg0.N) (p : Fin 512) (u : Fin 2048) :
    ((cfg0.win 6).blk t).view.emb (ix2 p u) = ix2 (rowOf t p) u := by
  obtain ⟨-, -, -, -, -, -, -, -, -, -, -, -, e0, e1⟩ := idx_facts t
  funext a; apply Fin.ext
  match a with
  | ⟨0, _⟩ => show win0_6.index t (0 : Fin 2) * 512 + 1 * p.val = 512 * (t.val / 16) + p.val; omega
  | ⟨1, _⟩ => show win0_6.index t (1 : Fin 2) * 2048 + 1 * u.val = u.val; omega

/-- What a last block writes back into this result array is the block of the whole-array function there. -/
theorem flushed6_eq (c : Dev nD) (t : Fin cfg0.N) (hf : (cfg0.win 6).flush t = true) :
    (dats m 0 c).flushed 6 t = ((cfg0.win 6).blk t).view.read (Elt Ideal) (cOut m c) := by
  have h15 : t.val % 16 = 15 := (flush0_6 t).mp hf
  show (cfg0.win 6).cut (grid0.coords t) ((dats m 0 c).after 6 t) = _
  rw [after_6]
  funext y
  obtain ⟨p, u, rfl⟩ : ∃ (p : Fin 512) (u : Fin 2048), y = ix2 p u := ⟨y 0, y 1, eq_ix2 y⟩
  show k0_pay4 (accAt m c t.val t.isLt) (blk m c 4 t) (ix2 p u) = cOut m c (((cfg0.win 6).blk t).view.emb (ix2 p u))
  rw [emb6, cell_last m c t h15]
  rfl

/-- An index of the array is in point `t`'s block iff each coordinate is in the block's range. -/
theorem mem_blk6 (t : Fin cfg0.N) (i : S1024x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v0_1).slice (win0_6.rect t)).set ↔ _
  rw [View.set_slice_whole, Rect.mem_set_unit]
  exact Iff.rfl

/-- Every row lies in the block written back at the last point of its row half. -/
theorem cover6 (i : S1024x2048.Idx) : ∃ t : Fin cfg0.N, (cfg0.win 6).flush t = true ∧ i ∈ ((cfg0.win 6).blk t).view.set := by
  have hi0 : (i 0).val < 1024 := (i 0).isLt
  have hi1 : (i 1).val < 2048 := (i 1).isLt
  have hN : cfg0.N = 32 := N_0
  let t : Fin cfg0.N := ⟨16 * ((i 0).val / 512) + 15, by omega⟩
  have ht : t.val = 16 * ((i 0).val / 512) + 15 := rfl
  obtain ⟨-, -, -, -, -, -, -, -, -, -, -, -, e0, e1⟩ := idx_facts t
  refine ⟨t, (flush0_6 t).mpr (by omega), ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 2048 ≤ (i 1).val ∧ (i 1).val < win0_6.index t (1 : Fin 2) * 2048 + 2048; omega

/-- The array after the run. -/
theorem final6 (c : Dev nD) : (dats m 0 c).arrAt 6 cfg0.N = cOut m c :=
  (dats m 0 c).arrAt_eq_of_cover 6 (cOut m c) (fun t hf => flushed6_eq m c t hf) cover6

/-! ## The run, read -/

/-- Every weakly fair execution of the idealized kernel terminates with the two result arrays at the new hidden
    state and the new cell state of the argument arrays, and the argument arrays as they were. -/
theorem run : θ_run defs (onTc (τ := τ) (main (F := Ideal))) ⟨m, fun _ => 0, ρ⟩ fun r => ∀ c : Dev nD,
      r.2.mem ((c.tc : Thread nD τ).loc main_v0_0) = hOut m c
      ∧ r.2.mem ((c.tc : Thread nD τ).loc main_v0_1) = cOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(h c 5).trans (final5 m c), (h c 6).trans (final6 m c),
     (h c 0).trans ((dats m 0 c).arrAt_in 0 rfl _), (h c 1).trans ((dats m 0 c).arrAt_in 1 rfl _),
     (h c 4).trans ((dats m 0 c).arrAt_in 4 rfl _), (h c 2).trans ((dats m 0 c).arrAt_in 2 rfl _)⟩) (run_main m ρ)

end Cert.KernelIdeal.CellValue

end
-- ==== Proof.RefValue.lean ====
/-
  The reference's result, read index by index.
-/
import proofs.«154079_j8632884265137_2_alg».proof.Proof.Gen.ReferenceIdeal.Run
import proofs.«154079_j8632884265137_2_alg».proof.Proof.Gen.ReferenceIdeal.Read
import proofs.«154079_j8632884265137_2_alg».proof.Proof.LstmSpec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-! ## Two regroupings of a finite sum in a commutative additive monoid -/

section Sums
variable {M : Type} [AddCommMonoid M]

/-- A sum over 4096 positions is the sum over the first 2048 plus the sum over the last 2048. -/
theorem sum_halves (f : Fin 4096 → M) :
    ∑ k : Fin 4096, f k
      = (∑ j : Fin 2048, f ⟨j.val, by have := j.isLt; omega⟩)
        + ∑ j : Fin 2048, f ⟨2048 + j.val, by have := j.isLt; omega⟩ := by
  have h := Fin.sum_univ_add (a := 2048) (b := 2048) f
  rw [h]
  rfl

/-- The 2048 positions of the hidden axis as sixteen blocks of 128. -/
def blockEquiv : Fin 16 × Fin 128 ≃ Fin 2048 where
  toFun p := ⟨128 * p.1.val + p.2.val, by have := p.1.isLt; have := p.2.isLt; omega⟩
  invFun i := (⟨i.val / 128, by have := i.isLt; omega⟩, ⟨i.val % 128, by omega⟩)
  left_inv p := by
    have h1 := p.1.isLt
    have h2 := p.2.isLt
    refine Prod.ext (Fin.ext ?_) (Fin.ext ?_)
    · show (128 * p.1.val + p.2.val) / 128 = p.1.val
      omega
    · show (128 * p.1.val + p.2.val) % 128 = p.2.val
      omega
  right_inv i := by
    refine Fin.ext ?_
    show 128 * (i.val / 128) + i.val % 128 = i.val
    omega

/-- A sum over the hidden axis is the sum over the blocks of the sums inside each block. -/
theorem sum_blocks (g : Fin 2048 → M) :
    ∑ j : Fin 2048, g j = ∑ k : Fin 16, ∑ j : Fin 128, g (Cert.Lstm.hid k j) := by
  rw [← Equiv.sum_comp blockEquiv g, Fintype.sum_prod_type]
  rfl

end Sums

/-! ## The two inputs side by side, read at an index -/

/-- The first 2048 positions of the joined row are `x`'s. -/
theorem concat_left (x0 x1 : (⟨S1024x2048, .f32⟩ : BufTy).Contents (Elt Ideal)) (r : Fin 1024) (j : Fin 2048) :
    val_main_v0 (F := Ideal) x0 x1 (ix2 r (⟨j.val, by have := j.isLt; omega⟩ : Fin 4096)) = x0 (ix2 r j) := by
  unfold val_main_v0
  refine concatenate_pair_apply_left (1 : Fin S1024x4096.rank) x0 x1
    concatenates_S1024x2048_S1024x2048_S1024x4096_d1 _ rfl (ix2 r j) ?_
  intro b
  match b with
  | ⟨0, _⟩ => rfl
  | ⟨1, _⟩ => rfl

/-- The last 2048 positions of the joined row are `h`'s. -/
theorem concat_right (x0 x1 : (⟨S1024x2048, .f32⟩ : BufTy).Contents (Elt Ideal)) (r : Fin 1024) (j : Fin 2048) :
    val_main_v0 (F := Ideal) x0 x1 (ix2 r (⟨2048 + j.val, by have := j.isLt; omega⟩ : Fin 4096)) = x1 (ix2 r j) := by
  unfold val_main_v0
  refine concatenate_pair_apply_right (1 : Fin S1024x4096.rank) x0 x1
    concatenates_S1024x2048_S1024x2048_S1024x4096_d1 _ rfl rfl (ix2 r j) ?_ ?_
  · intro b hb
    match b, hb with
    | ⟨0, _⟩, _ => rfl
    | ⟨1, _⟩, hb => exact absurd rfl hb
  · show j.val + 2048 = 2048 + j.val
    omega

/-! ## The product with the weight matrix at an index: the pre-activation -/

theorem lidx_eq (r : Fin 1024) (n : Fin 8192) (k : Fin 4096) : lidx_main_v1 (ix2 r n) k = ix2 r k :=
  funext fun a => by
    match a with
    | ⟨0, _⟩ => rfl
    | ⟨1, _⟩ => rfl

theorem ridx_eq (r : Fin 1024) (n : Fin 8192) (k : Fin 4096) : ridx_main_v1 (ix2 r n) k = ix2 k n :=
  funext fun a => by
    match a with
    | ⟨0, _⟩ => rfl
    | ⟨1, _⟩ => rfl

/-- Row `r` of `[x, h]` times column `n` of the weights is the pre-activation: the sum over the 4096 positions
    splits into `x`'s half and `h`'s half, and each half into its sixteen blocks. -/
theorem dot_apply (x0 x1 : (⟨S1024x2048, .f32⟩ : BufTy).Contents (Elt Ideal))
    (x3 : (⟨S4096x8192, .f32⟩ : BufTy).Contents (Elt Ideal)) (r : Fin 1024) (n : Fin 8192) :
    val_main_v1 (F := Ideal) x0 x1 x3 (ix2 r n)
      = Cert.Lstm.pre (fun r j => x0 (ix2 r j)) (fun r j => x1 (ix2 r j)) (fun q n => x3 (ix2 q n)) r n := by
  rw [val_main_v1_apply, sum_halves]
  simp only [lidx_eq, ridx_eq, concat_left, concat_right]
  rw [sum_blocks (fun j : Fin 2048 => x0 (ix2 r j) * x3 (ix2 (⟨j.val, by have := j.isLt; omega⟩ : Fin 4096) n)),
    sum_blocks (fun j : Fin 2048 => x1 (ix2 r j) * x3 (ix2 (⟨2048 + j.val, by have := j.isLt; omega⟩ : Fin 4096) n)),
    ← Finset.sum_add_distrib]
  rfl

/-! ## The constant one

The word `0x3F800000` denotes the extended real `1`; broadcast over the array it reads `1` at every index. -/

theorem one_v8 (i : S1024x2048.Idx) : val_main_v8 (F := Ideal) i = (1 : EReal) := by
  rw [val_main_v8_apply, val_main_cst_apply]
  exact Ideal.ofBits_one_f32

theorem one_v10 (i : S1024x2048.Idx) : val_main_v10 (F := Ideal) i = (1 : EReal) := by
  rw [val_main_v10_apply, val_main_cst_0_apply]
  exact Ideal.ofBits_one_f32

theorem one_v14 (i : S1024x2048.Idx) : val_main_v14 (F := Ideal) i = (1 : EReal) := by
  rw [val_main_v14_apply, val_main_cst_1_apply]
  exact Ideal.ofBits_one_f32

theorem one_v16 (i : S1024x2048.Idx) : val_main_v16 (F := Ideal) i = (1 : EReal) := by
  rw [val_main_v16_apply, val_main_cst_2_apply]
  exact Ideal.ofBits_one_f32

theorem one_v20 (i : S1024x2048.Idx) : val_main_v20 (F := Ideal) i = (1 : EReal) := by
  rw [val_main_v20_apply, val_main_cst_3_apply]
  exact Ideal.ofBits_one_f32

theorem one_v22 (i : S1024x2048.Idx) : val_main_v22 (F := Ideal) i = (1 : EReal) := by
  rw [val_main_v22_apply, val_main_cst_4_apply]
  exact Ideal.ofBits_one_f32

/-! ## The four gates

Each gate reads the pre-activation at its own column range. The program spells the logistic function
`1 / (1 + e^(-z))`, which is the definition of `Ideal.logistic`. -/

/-- The printed quotient is the logistic function. -/
theorem logistic_spelled (z : EReal) :
    FloatOps.hostDivf (F := Ideal) (φ := .f32) (1 : EReal)
        (FloatOps.addf (F := Ideal) (φ := .f32) (1 : EReal)
          (FloatOps.hostUnary (F := Ideal) (φ := .f32) .exp (FloatOps.hostNegf (F := Ideal) (φ := .f32) z)))
      = Ideal.logistic z := rfl

theorem idx_i (r : Fin 1024) (u : Fin 2048) : idx_main_v2 (ix2 r u) = ix2 r (Cert.Lstm.colI u) :=
  funext fun a => by
    match a with
    | ⟨0, _⟩ => rfl
    | ⟨1, _⟩ => rfl

theorem idx_f (r : Fin 1024) (u : Fin 2048) : idx_main_v3 (ix2 r u) = ix2 r (Cert.Lstm.colF u) :=
  funext fun a => by
    match a with
    | ⟨0, _⟩ => rfl
    | ⟨1, _⟩ => rfl

theorem idx_g (r : Fin 1024) (u : Fin 2048) : idx_main_v4 (ix2 r u) = ix2 r (Cert.Lstm.colG u) :=
  funext fun a => by
    match a with
    | ⟨0, _⟩ => rfl
    | ⟨1, _⟩ => rfl

theorem idx_o (r : Fin 1024) (u : Fin 2048) : idx_main_v5 (ix2 r u) = ix2 r (Cert.Lstm.colO u) :=
  funext fun a => by
    match a with
    | ⟨0, _⟩ => rfl
    | ⟨1, _⟩ => rfl

/-- The input gate. -/
theorem gate_i (x0 x1 : (⟨S1024x2048, .f32⟩ : BufTy).Contents (Elt Ideal))
    (x3 : (⟨S4096x8192, .f32⟩ : BufTy).Contents (Elt Ideal)) (r : Fin 1024) (u : Fin 2048) :
    val_main_v11 (F := Ideal) x0 x1 x3 (ix2 r u)
      = Ideal.logistic (Cert.Lstm.pre (fun r j => x0 (ix2 r j)) (fun r j => x1 (ix2 r j)) (fun q n => x3 (ix2 q n)) r (Cert.Lstm.colI u)) := by
  rw [val_main_v11_apply, one_v10, val_main_v9_apply, one_v8, val_main_v7_apply, val_main_v6_apply,
    val_main_v2_apply, idx_i, dot_apply]
  exact logistic_spelled _

/-- The forget gate. -/
theorem gate_f (x0 x1 : (⟨S1024x2048, .f32⟩ : BufTy).Contents (Elt Ideal))
    (x3 : (⟨S4096x8192, .f32⟩ : BufTy).Contents (Elt Ideal)) (r : Fin 1024) (u : Fin 2048) :
    val_main_v17 (F := Ideal) x0 x1 x3 (ix2 r u)
      = Ideal.logistic (Cert.Lstm.pre (fun r j => x0 (ix2 r j)) (fun r j => x1 (ix2 r j)) (fun q n => x3 (ix2 q n)) r (Cert.Lstm.colF u)) := by
  rw [val_main_v17_apply, one_v16, val_main_v15_apply, one_v14, val_main_v13_apply, val_main_v12_apply,
    val_main_v3_apply, idx_f, dot_apply]
  exact logistic_spelled _

/-- The output gate. -/
theorem gate_o (x0 x1 : (⟨S1024x2048, .f32⟩ : BufTy).Contents (Elt Ideal))
    (x3 : (⟨S4096x8192, .f32⟩ : BufTy).Contents (Elt Ideal)) (r : Fin 1024) (u : Fin 2048) :
    val_main_v23 (F := Ideal) x0 x1 x3 (ix2 r u)
      = Ideal.logistic (Cert.Lstm.pre (fun r j => x0 (ix2 r j)) (fun r j => x1 (ix2 r j)) (fun q n => x3 (ix2 q n)) r (Cert.Lstm.colO u)) := by
  rw [val_main_v23_apply, one_v22, val_main_v21_apply, one_v20, val_main_v19_apply, val_main_v18_apply,
    val_main_v5_apply, idx_o, dot_apply]
  exact logistic_spelled _

/-- The candidate. -/
theorem gate_g (x0 x1 : (⟨S1024x2048, .f32⟩ : BufTy).Contents (Elt Ideal))
    (x3 : (⟨S4096x8192, .f32⟩ : BufTy).Contents (Elt Ideal)) (r : Fin 1024) (u : Fin 2048) :
    val_main_v24 (F := Ideal) x0 x1 x3 (ix2 r u)
      = Ideal.tanh (Cert.Lstm.pre (fun r j => x0 (ix2 r j)) (fun r j => x1 (ix2 r j)) (fun q n => x3 (ix2 q n)) r (Cert.Lstm.colG u)) := by
  rw [val_main_v24_apply, val_main_v4_apply, idx_g, dot_apply]
  rfl

/-! ## The two results -/

/-- The reference's new cell state is the specification's. -/
theorem ref_c (x0 x1 x2 : (⟨S1024x2048, .f32⟩ : BufTy).Contents (Elt Ideal))
    (x3 : (⟨S4096x8192, .f32⟩ : BufTy).Contents (Elt Ideal)) (r : Fin 1024) (u : Fin 2048) :
    Cert.ReferenceIdeal.Read.val_main_v27 (F := Ideal) x0 x1 x2 x3 (ValueIdx.ix2 r u)
      = Cert.Lstm.cNew (fun r j => x0 (ValueIdx.ix2 r j)) (fun r j => x1 (ValueIdx.ix2 r j))
          (fun r j => x2 (ValueIdx.ix2 r j)) (fun q n => x3 (ValueIdx.ix2 q n)) r u := by
  rw [val_main_v27_apply, val_main_v25_apply, val_main_v26_apply, gate_f, gate_i, gate_g]
  rfl

/-- The reference's new hidden state is the specification's. -/
theorem ref_h (x0 x1 x2 : (⟨S1024x2048, .f32⟩ : BufTy).Contents (Elt Ideal))
    (x3 : (⟨S4096x8192, .f32⟩ : BufTy).Contents (Elt Ideal)) (r : Fin 1024) (u : Fin 2048) :
    Cert.ReferenceIdeal.Read.val_main_v29 (F := Ideal) x0 x1 x2 x3 (ValueIdx.ix2 r u)
      = Cert.Lstm.hNew (fun r j => x0 (ValueIdx.ix2 r j)) (fun r j => x1 (ValueIdx.ix2 r j))
          (fun r j => x2 (ValueIdx.ix2 r j)) (fun q n => x3 (ValueIdx.ix2 q n)) r u := by
  rw [val_main_v29_apply, gate_o, val_main_v28_apply, ref_c]
  rfl

end Cert.ReferenceIdeal.RefValue

end
-- ==== Proof.lean ====
/-
  The certificate of an LSTM cell computed block by block against its one-line reference.

  The kernel walks a grid of 2 × 16 points: two halves of the 1024 rows, and for each half the sixteen blocks of
  128 positions of the hidden axis. A scratch of 512 × 8192 entries accumulates, block after block, the product of
  the `x` block with the 128 matching rows of the weight matrix and of the `h` block with the 128 rows 2048 further
  down — the weight matrix is staged through two windows on the same array —, and after the sixteenth block the four
  gate ranges of the finished pre-activation give the new cell state `σ(f) · c + σ(i) · tanh(g)` and the new hidden
  state `σ(o) · tanh(new cell state)`. The reference joins `x` and `h` side by side, multiplies by the whole
  weight matrix once, slices the four gate ranges and applies the same formulas, its logistic function spelt as
  `1 / (1 + exp (-z))`.

  Over the extended reals the two are one function: a change of float format is the identity; a sum over 4096
  positions is the sum of its sixteen blocks of the first 2048 and of the last 2048, in any grouping (addition on
  the extended reals is commutative and associative; nothing needs the inputs to be finite); and the logistic
  function is by definition the quotient the reference spells. Both sides are proved equal to one specification
  (`Cert.Lstm.hNew`, `Cert.Lstm.cNew`).

  The frames: the body's run at a grid point is proved once for each of the three situations a point can be in
  (first block, a middle block, last block) over the body's named stored values, for any float instance; the
  scratch's contents after each point are named by recursion on the point and carried by the region's invariant;
  the launch deals the weight matrix's share in halves to its two windows. The same text, over the word-level
  program and over the idealized one, gives both kernels' frames; the reference's frame is its run with the
  results dropped. The ideal pass rewrote nothing, so there is nothing to preserve.
-/
import proofs.«154079_j8632884265137_2_alg».proof.Defs
import proofs.«154079_j8632884265137_2_alg».proof.Proof.Gen.Kernel
import proofs.«154079_j8632884265137_2_alg».proof.Proof.Gen.KernelIdeal
import proofs.«154079_j8632884265137_2_alg».proof.Proof.Gen.ReferenceIdeal
import proofs.«154079_j8632884265137_2_alg».proof.Proof.Gen.Pre_finite_inputs
import proofs.«154079_j8632884265137_2_alg».proof.Proof.K.Launch
import proofs.«154079_j8632884265137_2_alg».proof.Proof.KI.Launch
import proofs.«154079_j8632884265137_2_alg».proof.Proof.KI.Value
import proofs.«154079_j8632884265137_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Cell.frame m ρ
theorem frame_kernelIdeal : Cert.frame_KernelIdeal := fun m ρ _ => Cert.KernelIdeal.Cell.frame m ρ
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- The reference's hidden-state term of arrays is the specification's, as a whole array. -/
theorem ref_hidden (x0 x1 x2 : (⟨Cert.ReferenceIdeal.S1024x2048, .f32⟩ : BufTy).Contents (Elt Ideal))
    (x3 : (⟨Cert.ReferenceIdeal.S4096x8192, .f32⟩ : BufTy).Contents (Elt Ideal)) :
    Cert.ReferenceIdeal.Read.val_main_v29 (F := Ideal) x0 x1 x2 x3
      = fun i => Cert.Lstm.hNew (fun r j => x0 (ix2 r j)) (fun r j => x1 (ix2 r j)) (fun r j => x2 (ix2 r j)) (fun q n => x3 (ix2 q n)) (i 0) (i 1) := by
  funext i
  rw [eq_ix2 i]
  exact Cert.ReferenceIdeal.RefValue.ref_h x0 x1 x2 x3 (i 0) (i 1)

/-- The same for the cell state. -/
theorem ref_cell (x0 x1 x2 : (⟨Cert.ReferenceIdeal.S1024x2048, .f32⟩ : BufTy).Contents (Elt Ideal))
    (x3 : (⟨Cert.ReferenceIdeal.S4096x8192, .f32⟩ : BufTy).Contents (Elt Ideal)) :
    Cert.ReferenceIdeal.Read.val_main_v27 (F := Ideal) x0 x1 x2 x3
      = fun i => Cert.Lstm.cNew (fun r j => x0 (ix2 r j)) (fun r j => x1 (ix2 r j)) (fun r j => x2 (ix2 r j)) (fun q n => x3 (ix2 q n)) (i 0) (i 1) := by
  funext i
  rw [eq_ix2 i]
  exact Cert.ReferenceIdeal.RefValue.ref_c x0 x1 x2 x3 (i 0) (i 1)

/-- At the ideal instance both programs end with the new hidden state (twice) and the new cell state of the
    argument arrays. -/
theorem algebraic : Cert.algebraic_KernelIdeal_ReferenceIdeal := by
  intro m ρ m' ρ' _ hagree
  refine ⟨fun c => Cert.KernelIdeal.CellValue.hOut m c, fun c => Cert.KernelIdeal.CellValue.hOut m c,
    fun c => Cert.KernelIdeal.CellValue.cOut m c, ?_, ?_⟩
  · exact (θ_run Cert.KernelIdeal.defs _ _).mono (fun r h c => ⟨(h c).1, (h c).1, (h c).2.1, (h c).2.2⟩)
      (Cert.KernelIdeal.CellValue.run m ρ)
  · refine (θ_run Cert.ReferenceIdeal.defs _ _).mono (fun r h c => ?_) (Cert.ReferenceIdeal.Value.run (F := Ideal) m' ρ')
    have eh : r.2.mem ((c.tc : Thread Cert.ReferenceIdeal.nD Cert.ReferenceIdeal.τ).loc Cert.ReferenceIdeal.main_v29) = Cert.KernelIdeal.CellValue.hOut m c := by
      rw [(h c).1, Cert.ReferenceIdeal.Read.val_main_v29_eq, ref_hidden, (hagree c).1, (hagree c).2.1, (hagree c).2.2.1, (hagree c).2.2.2]
      rfl
    have ec : r.2.mem ((c.tc : Thread Cert.ReferenceIdeal.nD Cert.ReferenceIdeal.τ).loc Cert.ReferenceIdeal.main_v27) = Cert.KernelIdeal.CellValue.cOut m c := by
      rw [(h c).2.2.1, Cert.ReferenceIdeal.Read.val_main_v27_eq, ref_cell, (hagree c).1, (hagree c).2.1, (hagree c).2.2.1, (hagree c).2.2.2]
      rfl
    exact ⟨eh, eh, ec, (h c).2.2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
